-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S128x32 .f32) (main_arg9 : FVec F S32 .f32) (main_arg10 : FVec F S128x32 .f32) (main_v33 : IVec S_ 1) : IVec S_ 1 :=
  let main_v34 : FVec F S128x32 .f32 := Host.absf main_arg8
  let main_cst_12 : FVec F S_ .f32 := constant S_ .f32 0x7F800000#32
  let main_v35 : FVec F S128x32 .f32 := broadcastInDim S128x32 ![] bcast_S_S128x32 main_cst_12
  let main_v36 : IVec S128x32 1 := cmpf .olt main_v34 main_v35
  let main_c_13 : IVec S_ 1 := constantI S_ 1 1#1
  let main_v37 : IVec S_ 1 := (fun x v => Host.reduce IntOp.andi x v reducesTo_S128x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S128x32 .f32 := Host.absf main_arg10
  let main_cst_16 : FVec F S_ .f32 := constant S_ .f32 0x7F800000#32
  let main_v45 : FVec F S128x32 .f32 := broadcastInDim S128x32 ![] bcast_S_S128x32 main_cst_16
  let main_v46 : IVec S128x32 1 := cmpf .olt main_v44 main_v45
  let main_c_17 : IVec S_ 1 := constantI S_ 1 1#1
  let main_v47 : IVec S_ 1 := (fun x v => Host.reduce IntOp.andi x v reducesTo_S128x32_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x32 .f32) (main_arg9 : FVec F S32 .f32) (main_arg10 : FVec F S128x32 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x32 .f32) (main_arg9 : FVec F S32 .f32) (main_arg10 : FVec F S128x32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S2000x128 : Shape := ⟨2, ![2000, 128]⟩
abbrev S1x128 : Shape := ⟨2, ![1, 128]⟩
abbrev S100000x32 : Shape := ⟨2, ![100000, 32]⟩
abbrev S2000x32 : Shape := ⟨2, ![2000, 32]⟩
abbrev S1x32 : Shape := ⟨2, ![1, 32]⟩
abbrev S2000 : Shape := ⟨1, ![2000]⟩
abbrev S2000x1 : Shape := ⟨2, ![2000, 1]⟩

abbrev nBuf : Space → Nat
  | .hbm => 93
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x32, .f32⟩
  | .hbm, ⟨9, _⟩ => ⟨S32, .f32⟩
  | .hbm, ⟨10, _⟩ => ⟨S128x32, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S_, .f32⟩
  | .hbm, ⟨55, _⟩ => ⟨S1600000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S_, .f32⟩
  | .hbm, ⟨77, _⟩ => ⟨S100000x128, .f32⟩
  | .hbm, ⟨78, _⟩ => ⟨S1600000x1, .i32⟩
  | .hbm, ⟨79, _⟩ => ⟨S100000x128, .f32⟩
  | .hbm, ⟨80, _⟩ => ⟨S_, .f32⟩
  | .hbm, ⟨81, _⟩ => ⟨S1600000, .f32⟩
  | .hbm, ⟨82, _⟩ => ⟨S_, .f32⟩
  | .hbm, ⟨83, _⟩ => ⟨S100000, .f32⟩
  | .hbm, ⟨84, _⟩ => ⟨S1600000x1, .i32⟩
  | .hbm, ⟨85, _⟩ => ⟨S100000, .f32⟩
  | .hbm, ⟨86, _⟩ => ⟨S_, .f32⟩
  | .hbm, ⟨87, _⟩ => ⟨S100000, .f32⟩
  | .hbm, ⟨88, _⟩ => ⟨S100000, .f32⟩
  | .hbm, ⟨89, _⟩ => ⟨S100000x1, .f32⟩
  | .hbm, ⟨90, _⟩ => ⟨S100000x128, .f32⟩
  | .hbm, ⟨91, _⟩ => ⟨S100000x128, .f32⟩
  | .hbm, ⟨92, _⟩ => ⟨S100000x32, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x32, .f32⟩
  | .local _ .vmem, ⟨23, _⟩ => ⟨S32, .f32⟩
  | .local _ .vmem, ⟨24, _⟩ => ⟨S128x32, .f32⟩
  | .local _ .vmem, ⟨25, _⟩ => ⟨S2000x32, .f32⟩
  | .local _ .vmem, ⟨26, _⟩ => ⟨S2000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_9 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_10 : Ref sig .tc := ⟨.hbm, 67, rfl⟩
abbrev main_v44 : Ref sig .tc := ⟨.hbm, 68, rfl⟩
abbrev main_v45 : Ref sig .tc := ⟨.hbm, 69, rfl⟩
abbrev main_c_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_12 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_13 : Ref sig .tc := ⟨.hbm, 80, rfl⟩
abbrev main_v54 : Ref sig .tc := ⟨.hbm, 81, rfl⟩
abbrev main_cst_14 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_15 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x32_S128x32_0_0 : ∀ a, (![0, 0] : Fin 2 → Nat) a + S128x32.size a ≤ S128x32.size a
  h_S128x32 : 0 < S128x32.numel
  inb_S32_S32_0 : ∀ a, (![0] : Fin 1 → Nat) a + S32.size a ≤ S32.size a
  h_S32 : 0 < S32.numel
  shapeCasts_S32_S1x32 : S32.ShapeCasts S1x32
  broadcasts_S1x32_S2000x32 : S1x32.Broadcasts S2000x32
  reduces_S2000x32_S2000 : S2000x32.Reduces [1] S2000
  shapeCasts_S2000_S2000x1 : S2000.ShapeCasts S2000x1
  broadcasts_S2000x1_S2000x32 : S2000x1.Broadcasts S2000x32
  inb_S2000x32_S2000x32_0_0 : ∀ a, (![0, 0] : Fin 2 → Nat) a + S2000x32.size a ≤ S2000x32.size a
  h_S2000x32 : 0 < S2000x32.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x128_S2000x128_1_0_0_1_n_n_wf : DotDims.WF S2000x128 S128x128 S2000x128 [1] [0] [0] [1] [] []
  dot_S2000x128_S128x32_S2000x32_1_0_0_1_n_n_wf : DotDims.WF S2000x128 S128x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x32.size a ≤ S128x32.size a
  hwx2_2 : ∀ i : grid2.Coords, EltTy.bits .f32 = 32 ∨ (Rect.block (s := S128x32) S128x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32.size a ≤ S32.size a
  hwx2_3 : ∀ i : grid2.Coords, EltTy.bits .f32 = 32 ∨ (Rect.block (s := S32) S32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x32.size a ≤ S128x32.size a
  hwx2_4 : ∀ i : grid2.Coords, EltTy.bits .f32 = 32 ∨ (Rect.block (s := S128x32) S128x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x32.size a ≤ S100000x32.size a
  hwx2_5 : ∀ i : grid2.Coords, EltTy.bits .f32 = 32 ∨ (Rect.block (s := S100000x32) S2000x32.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v62) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v63) S2000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x32 : Shape := ⟨2, ![100000, 32]⟩
abbrev S1x32 : Shape := ⟨2, ![1, 32]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S128x32, .f32⟩
  | 9 => ⟨S32, .f32⟩
  | 10 => ⟨S128x32, .f32⟩
  | 11 => ⟨S1x1600000, .i32⟩
  | 12 => ⟨S1600000, .i32⟩
  | 13 => ⟨S1x1600000, .i32⟩
  | 14 => ⟨S1600000, .i32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x128, .f32⟩
  | 24 => ⟨S_, .f32⟩
  | 25 => ⟨S100000x128, .f32⟩
  | 26 => ⟨S1600000x1, .i32⟩
  | 27 => ⟨S100000x128, .f32⟩
  | 28 => ⟨S_, .f32⟩
  | 29 => ⟨S1600000, .f32⟩
  | 30 => ⟨S_, .f32⟩
  | 31 => ⟨S100000, .f32⟩
  | 32 => ⟨S1600000x1, .i32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S_, .i32⟩
  | 50 => ⟨S1600000, .i32⟩
  | 51 => ⟨S1600000, .i1⟩
  | 52 => ⟨S_, .i32⟩
  | 53 => ⟨S1600000, .i32⟩
  | 54 => ⟨S1600000, .i32⟩
  | 55 => ⟨S1600000, .i32⟩
  | 56 => ⟨S1600000x1, .i32⟩
  | 57 => ⟨S1600000x128, .f32⟩
  | 58 => ⟨S_, .f32⟩
  | 59 => ⟨S100000x128, .f32⟩
  | 60 => ⟨S1600000x1, .i32⟩
  | 61 => ⟨S100000x128, .f32⟩
  | 62 => ⟨S_, .f32⟩
  | 63 => ⟨S1600000, .f32⟩
  | 64 => ⟨S_, .f32⟩
  | 65 => ⟨S100000, .f32⟩
  | 66 => ⟨S1600000x1, .i32⟩
  | 67 => ⟨S100000, .f32⟩
  | 68 => ⟨S_, .f32⟩
  | 69 => ⟨S100000, .f32⟩
  | 70 => ⟨S100000, .f32⟩
  | 71 => ⟨S100000x1, .f32⟩
  | 72 => ⟨S100000x128, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x128, .f32⟩
  | 92 => ⟨S_, .f32⟩
  | 93 => ⟨S100000x128, .f32⟩
  | 94 => ⟨S1600000x1, .i32⟩
  | 95 => ⟨S100000x128, .f32⟩
  | 96 => ⟨S_, .f32⟩
  | 97 => ⟨S1600000, .f32⟩
  | 98 => ⟨S_, .f32⟩
  | 99 => ⟨S100000, .f32⟩
  | 100 => ⟨S1600000x1, .i32⟩
  | 101 => ⟨S100000, .f32⟩
  | 102 => ⟨S_, .f32⟩
  | 103 => ⟨S100000, .f32⟩
  | 104 => ⟨S100000, .f32⟩
  | 105 => ⟨S100000x1, .f32⟩
  | 106 => ⟨S100000x128, .f32⟩
  | 107 => ⟨S100000x128, .f32⟩
  | 108 => ⟨S100000x32, .f32⟩
  | 109 => ⟨S1x32, .f32⟩
  | 110 => ⟨S100000x32, .f32⟩
  | 111 => ⟨S100000x32, .f32⟩
  | 112 => ⟨S100000x32, .f32⟩
  | 113 => ⟨S100000x32, .f32⟩
  | 114 => ⟨S_, .f32⟩
  | 115 => ⟨S100000, .f32⟩
  | 116 => ⟨S_, .f32⟩
  | 117 => ⟨S100000, .f32⟩
  | 118 => ⟨S100000, .f32⟩
  | 119 => ⟨S100000x1, .f32⟩
  | 120 => ⟨S100000x32, .f32⟩
  | 121 => ⟨S100000x32, .f32⟩
  | 122 => ⟨S100000x32, .f32⟩
  | 123 => ⟨S_, .f32⟩
  | 124 => ⟨S100000, .f32⟩
  | 125 => ⟨S100000x1, .f32⟩
  | 126 => ⟨S100000x1, .f32⟩
  | 127 => ⟨S100000x32, .f32⟩
  | _ => ⟨S100000x128, .f32⟩

abbrev hbmTy0_1 (i : Nat) : BufTy := match i % 128 with
  | 0 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_call2_cst : Ref sig .tc := ⟨.hbm, 114, rfl⟩
abbrev main_call2_v0 : Ref sig .tc := ⟨.hbm, 115, rfl⟩
abbrev main_call2_cst_0 : Ref sig .tc := ⟨.hbm, 116, rfl⟩
abbrev main_call2_v1 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_v6 : Ref sig .tc := ⟨.hbm, 122, rfl⟩
abbrev main_call2_cst_1 : Ref sig .tc := ⟨.hbm, 123, rfl⟩
abbrev main_call2_v7 : Ref sig .tc := ⟨.hbm, 124, rfl⟩
abbrev main_call2_v8 : Ref sig .tc := ⟨.hbm, 125, rfl⟩
abbrev main_call2_v9 : Ref sig .tc := ⟨.hbm, 126, rfl⟩
abbrev main_call2_v10 : Ref sig .tc := ⟨.hbm, 127, rfl⟩
abbrev main_v81 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  h_S_ : 0 < S_.numel
  bcast_S100000x1_S100000x32_0_1 : S100000x1.BroadcastsInDim S100000x32 (![0, 1] : Fin 2 → Fin S100000x32.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x32_S100000x32_1_0_0_1_n_n_wf : DotDims.WF S100000x128 S128x32 S100000x32 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf

class Facts : Prop extends Facts₀ where

variable [Facts]
-- ==== Proof.KernelRun.lean ====
/-
  The run of the idealized kernel program with its RESULT named: every weakly fair execution of @main terminates, nothing
  faults, the eleven argument arrays end as launched, and the result array ends at the contents the third kernel's
  write-backs leave (W6 at the result's buffer: the fold, through the three stretches of host operations and the three
  kernels, of the launch memory). The statement is the generated frame's with one more conjunct read off the same last
  thread state.
-/
import proofs.«127570_j29703993819225_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result array named: the last thread state holds every unscoped buffer at the last boundary's
    contents, and the result's buffer is one of them. -/
theorem run_result : θ_run defs (onTc (τ := τ) (main (F := F))) ⟨m, fun _ => 0, ρ⟩ (fun r => ∀ c : Dev nD,
      r.2.mem ((c.tc : Thread nD τ).loc main_v63) = W6 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v63 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Named

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibBiasRows.lean ====
/-
  GENERAL LEMMAS: a bias vector laid along the rows of a matrix, read at an entry, in the two spellings a kernel and a
  host program give it. Nothing here mentions a program; the number of rows R and the bias's length n are arbitrary.

  * bias_rows: the kernel's spelling — a length-n vector cast to one row [1, n] and broadcast to [R, n] — at (p, c) is the
    vector at c.
  * bias_host: the host's spelling — a length-n vector broadcast along axis 1 to [1, n] and then along both axes to [R, n]
    — at (r, c) is the vector at c, for n other than 1 (a length-1 axis is the one that a broadcast stretches).
  Both hold for entries of any type: no arithmetic is involved.
-/
import Idealize.ShloMosaic.Lib.Pipeline.Value
import Idealize.ShloMosaic.Lib.ValueLayout
import Idealize.ShloMosaic.Lib.ValueIdx

noncomputable section

namespace Cert.LibBiasRows

open Idealize.ShloMosaic Idealize.ShloMosaic.ValueIdx

variable {α : Type}

/-- A vector of length n cast to one row and laid along R rows reads, at (p, c), the vector at c. -/
theorem bias_rows {R n : ℕ} (b : (⟨1, ![n]⟩ : Shape).Idx → α) (hc : (⟨1, ![n]⟩ : Shape).ShapeCasts ⟨2, ![1, n]⟩)
    (hb : (⟨2, ![1, n]⟩ : Shape).Broadcasts ⟨2, ![R, n]⟩) (p : Fin R) (c : Fin n) :
    broadcastTo ⟨2, ![R, n]⟩ (shapeCast ⟨2, ![1, n]⟩ b hc) hb (ix2 p c) = b (ix1 c) :=
  (broadcastTo_1b_ab_apply _ hb p c).trans (shapeCast_a_1a_apply b hc 0 c)

/-- A vector of length n (n not 1) broadcast to one row and then along R rows reads, at (r, c), the vector at c. -/
theorem bias_host {R n : ℕ} (hn : n ≠ 1) (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => show c.val = if n = 1 then 0 else c.val; rw [if_neg hn]
  · match a with
    | ⟨0, _⟩ => show c.val = if n = 1 then 0 else c.val; rw [if_neg hn]

end Cert.LibBiasRows

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.LibLaneMax.lean ====
/-
  GENERAL LEMMA: a maximum over the lane axis of a matrix, read at a row on extended reals.

  * laneMax_apply: a float maximum-reduction over axis 1 of an [a, b] matrix, started from an accumulator word, read at
    row r, is the fold of max from the accumulator's value over the b entries (r, k) of that row. Because max on the
    extended reals commutes and associates, the order in which the entries are visited does not matter, so the fold is
    over the finite set of lane positions.
  Nothing here mentions a program; the extents a and b are arbitrary.
-/
import proofs.«127570_j29703993819225_1_alg».proof.Proof.LibLayout

noncomputable section

namespace Cert.LibLaneMax

open Idealize.ShloMosaic Idealize.ShloMosaic.ValueIdx

/-- A float maximum over the lane axis of a matrix, read at row `r` at the exact instance: the fold of `max`, from
    the accumulator's value, over the row's entries. -/
theorem laneMax_apply {a b : ℕ} (v : FVec Ideal ⟨2, ![a, b]⟩ .f32) (acc : BitVec 32)
    (h : Shape.Reduces ⟨2, ![a, b]⟩ [1] ⟨1, ![a]⟩) (hφ : FKind.Formats .f32)
    (hacc : acc = FKind.maximumf.neutral .f32 hφ) (r : Fin a) :
    multiReduction .maximumf [1] ⟨1, ![a]⟩ v acc h hφ hacc (ix1 r)
      = (Finset.univ : Finset (Fin b)).fold max (Ideal.ofBits .f32 acc) (fun k => v (ix2 r k)) :=
  (Ideal.multiReduction_maximumf_single v acc h hφ hacc (ix1 r)).trans
    (congrArg (fun f : Fin b → EReal => (Finset.univ : Finset (Fin b)).fold max (Ideal.ofBits .f32 acc) f)
      (funext fun k => congrArg v (Cert.LibLayout.lift_row h r k)))

end Cert.LibLaneMax

end
-- ==== Proof.LibSageLayers.lean ====
/-
  GENERAL LEMMAS: a mean-aggregating graph layer on extended reals, as functions of whole matrices; nothing here mentions a program and
  every extent is arbitrary.

  For a matrix a of aggregated neighbour features and a matrix x of node features (R rows, K columns), two weight
  matrices Wl, Wr (K rows, N columns) and a bias b (length N), the pre-activation at (p, q) is
      (sum over k of a(p, k) * Wl(k, q)  +  sum over k of x(p, k) * Wr(k, q))  +  b(q).
  The rectified layer takes the larger of that and zero. The log-softmax layer subtracts from every entry of a row the
  row's maximum m and then the logarithm of the row's sum of exp(entry - m).

  Two facts are proved for each layer.
  * ROW-LOCALITY: row p of the result depends only on row p of a and of x, so the layer applied to a block of consecutive
    rows is that block of rows of the layer applied to the whole matrices.
  * THE SPELLINGS: the matrix unit's two products into zero accumulators, added, plus the bias cast to one row and laid
    along the rows; and the host's first product plus the bias broadcast twice, plus the second product. The two differ
    by the order of three summands, and addition of extended reals is commutative and associative, so no entry needs to
    be finite.
-/
import Idealize.ShloMosaic.PureOps.Ideal
import Idealize.ShloMosaic.PureOps.Ideal.Laws
import Idealize.ShloMosaic.Lib.ValueIdx
import proofs.«127570_j29703993819225_1_alg».proof.Proof.LibMatmulRows
import proofs.«127570_j29703993819225_1_alg».proof.Proof.LibBiasRows
import proofs.«127570_j29703993819225_1_alg».proof.Proof.LibLayout
import proofs.«127570_j29703993819225_1_alg».proof.Proof.LibLaneMax

noncomputable section

namespace Cert.Sage

open Idealize.ShloMosaic Idealize.ShloMosaic.ValueIdx
open scoped BigOperators

/-- A matrix of R rows and C columns of extended reals. -/
abbrev Mat (R C : ℕ) := (⟨2, ![R, C]⟩ : Shape).Idx → EReal
/-- A vector of N extended reals. -/
abbrev Vc (N : ℕ) := (⟨1, ![N]⟩ : Shape).Idx → EReal

/-- The pre-activation at (p, q): row p of a against column q of Wl, plus row p of x against column q of Wr, plus b(q). -/
def preAt {R K N : ℕ} (a x : Mat R K) (Wl : Mat K N) (b : Vc N) (Wr : Mat K N) (p : Fin R) (q : Fin N) : EReal :=
  ((∑ k : Fin K, a (ix2 p k) * Wl (ix2 k q)) + ∑ k : Fin K, x (ix2 p k) * Wr (ix2 k q)) + b (ix1 q)

/-- The rectified layer: the larger of the pre-activation and the single-precision zero. -/
def reluLayer {R K N : ℕ} (a x : Mat R K) (Wl : Mat K N) (b : Vc N) (Wr : Mat K N) : Mat R N :=
  fun i => max (preAt a x Wl b Wr (i 0) (i 1)) (Ideal.ofBits .f32 0x00000000#32)

/-- The maximum of a row, folded from the single-precision word of minus infinity. -/
def rowMax {N : ℕ} (z : Fin N → EReal) : EReal :=
  (Finset.univ : Finset (Fin N)).fold max (Ideal.ofBits .f32 0xFF800000#32) z

/-- Log-softmax of a row z at position q: (z q - m) - log (sum over q' of exp (z q' - m)), m the row's maximum. -/
def lsmAt {N : ℕ} (z : Fin N → EReal) (q : Fin N) : EReal :=
  (z q - rowMax z) - Ideal.log (∑ q' : Fin N, Ideal.exp (z q' - rowMax z))

/-- The log-softmax layer: log-softmax of each row of pre-activations. -/
def lsmLayer {R K N : ℕ} (a x : Mat R K) (Wl : Mat K N) (b : Vc N) (Wr : Mat K N) : Mat R N :=
  fun i => lsmAt (fun q => preAt a x Wl b Wr (i 0) q) (i 1)

/-! ## Row-locality -/

/-- The pre-activation of row p of (a, x) is that of row p' of (a', x') when the rows agree. -/
theorem preAt_congr {R R' K N : ℕ} (a x : Mat R K) (a' x' : Mat R' K) (Wl : Mat K N) (b : Vc N) (Wr : Mat K N)
    (p : Fin R) (p' : Fin R') (ha : ∀ k : Fin K, a (ix2 p k) = a' (ix2 p' k)) (hx : ∀ k : Fin K, x (ix2 p k) = x' (ix2 p' k))
    (q : Fin N) : preAt a x Wl b Wr p q = preAt a' x' Wl b Wr p' q := by
  unfold preAt
  have e1 : ∀ k : Fin K, a (ix2 p k) * Wl (ix2 k q) = a' (ix2 p' k) * Wl (ix2 k q) := fun k => by rw [ha k]
  have e2 : ∀ k : Fin K, x (ix2 p k) * Wr (ix2 k q) = x' (ix2 p' k) * Wr (ix2 k q) := fun k => by rw [hx k]
  rw [Finset.sum_congr rfl fun k _ => e1 k, Finset.sum_congr rfl fun k _ => e2 k]

/-- The rectified layer on matrices whose rows p and p' agree: the same row of results. -/
theorem reluLayer_row {R R' K N : ℕ} (a x : Mat R K) (a' x' : Mat R' K) (Wl : Mat K N) (b : Vc N) (Wr : Mat K N)
    (p : Fin R) (p' : Fin R') (ha : ∀ k : Fin K, a (ix2 p k) = a' (ix2 p' k)) (hx : ∀ k : Fin K, x (ix2 p k) = x' (ix2 p' k))
    (q : Fin N) : reluLayer a x Wl b Wr (ix2 p q) = reluLayer a' x' Wl b Wr (ix2 p' q) := by
  show max (preAt a x Wl b Wr p q) _ = max (preAt a' x' Wl b Wr p' q) _
  rw [preAt_congr a x a' x' Wl b Wr p p' ha hx q]

/-- The log-softmax layer on matrices whose rows p and p' agree: the same row of results. -/
theorem lsmLayer_row {R R' K N : ℕ} (a x : Mat R K) (a' x' : Mat R' K) (Wl : Mat K N) (b : Vc N) (Wr : Mat K N)
    (p : Fin R) (p' : Fin R') (ha : ∀ k : Fin K, a (ix2 p k) = a' (ix2 p' k)) (hx : ∀ k : Fin K, x (ix2 p k) = x' (ix2 p' k))
    (q : Fin N) : lsmLayer a x Wl b Wr (ix2 p q) = lsmLayer a' x' Wl b Wr (ix2 p' q) := by
  show lsmAt (fun q => preAt a x Wl b Wr p q) q = lsmAt (fun q => preAt a' x' Wl b Wr p' q) q
  rw [show (fun q => preAt a x Wl b Wr p q) = fun q => preAt a' x' Wl b Wr p' q from
    funext fun c => preAt_congr a x a' x' Wl b Wr p p' ha hx c]

/-! ## The matrix unit's spelling -/

/-- Two products into zero accumulators, added, plus the bias cast to one row and laid along the rows, read at (p, q). -/
theorem pre_of_matmul {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨1, ![N]⟩ : Shape).ShapeCasts ⟨2, ![1, N]⟩) (hb : (⟨2, ![1, N]⟩ : Shape).Broadcasts ⟨2, ![R, N]⟩)
    {φ₁ φ₂ φ₃ φ₄ : FTy} (a : FVec Ideal ⟨2, ![R, K]⟩ φ₁) (x : FVec Ideal ⟨2, ![R, K]⟩ φ₂)
    (Wl : FVec Ideal ⟨2, ![K, N]⟩ φ₃) (Wr : FVec Ideal ⟨2, ![K, N]⟩ φ₄) (b : FVec Ideal ⟨1, ![N]⟩ .f32) (p : Fin R) (q : Fin N) :
    addf (addf (matmul d none a Wl (constant (F := Ideal) ⟨2, ![R, N]⟩ .f32 0x00000000#32))
        (matmul d none x Wr (constant (F := Ideal) ⟨2, ![R, N]⟩ .f32 0x00000000#32)))
      (broadcastTo ⟨2, ![R, N]⟩ (shapeCast ⟨2, ![1, N]⟩ b hc) hb) (ix2 p q) = preAt a x Wl b Wr p q := by
  show matmul d none a Wl (constant (F := Ideal) ⟨2, ![R, N]⟩ .f32 0x00000000#32) (ix2 p q)
      + matmul d none x Wr (constant (F := Ideal) ⟨2, ![R, N]⟩ .f32 0x00000000#32) (ix2 p q)
      + broadcastTo ⟨2, ![R, N]⟩ (shapeCast ⟨2, ![1, N]⟩ b hc) hb (ix2 p q) = preAt a x Wl b Wr p q
  rw [Cert.LibMatmulRows.matmul_rows d hrank hsize hl0 hl1 hr0 hr1 a Wl p q,
    Cert.LibMatmulRows.matmul_rows d hrank hsize hl0 hl1 hr0 hr1 x Wr p q, Cert.LibBiasRows.bias_rows b hc hb p q]
  rfl

/-- A row's maximum subtracted, then the logarithm of the row's sum of exponentials subtracted — the reductions over the
    lane axis, their results cast to a column and laid back over the lanes — read at (p, q). -/
theorem lsm_of_lanes {R N : ℕ} (z : FVec Ideal ⟨2, ![R, N]⟩ .f32)
    (hred : Shape.Reduces ⟨2, ![R, N]⟩ [1] ⟨1, ![R]⟩) (hc1 : (⟨1, ![R]⟩ : Shape).ShapeCasts ⟨2, ![R, 1]⟩)
    (hb1 : (⟨2, ![R, 1]⟩ : Shape).Broadcasts ⟨2, ![R, N]⟩) (hφ : FKind.Formats .f32)
    (hmax : (0xFF800000#32 : BitVec 32) = FKind.maximumf.neutral .f32 hφ)
    (hadd : (0x00000000#32 : BitVec 32) = FKind.add.neutral .f32 hφ) (p : Fin R) (q : Fin N) :
    subf (subf z (broadcastTo ⟨2, ![R, N]⟩ (shapeCast ⟨2, ![R, 1]⟩
            (multiReduction .maximumf [1] ⟨1, ![R]⟩ z 0xFF800000#32 hred hφ hmax) hc1) hb1))
      (broadcastTo ⟨2, ![R, N]⟩ (log (shapeCast ⟨2, ![R, 1]⟩
        (multiReduction .add [1] ⟨1, ![R]⟩ (exp (subf z (broadcastTo ⟨2, ![R, N]⟩ (shapeCast ⟨2, ![R, 1]⟩
            (multiReduction .maximumf [1] ⟨1, ![R]⟩ z 0xFF800000#32 hred hφ hmax) hc1) hb1)))
          0x00000000#32 hred hφ hadd) hc1)) hb1) (ix2 p q)
      = lsmAt (fun q' => z (ix2 p q')) q := by
  have hM : ∀ c : Fin N, broadcastTo ⟨2, ![R, N]⟩ (shapeCast ⟨2, ![R, 1]⟩
      (multiReduction .maximumf [1] ⟨1, ![R]⟩ z 0xFF800000#32 hred hφ hmax) hc1) hb1 (ix2 p c)
      = rowMax (fun q' => z (ix2 p q')) := fun c => by
    rw [Cert.LibLayout.broadcastTo_a1_ab_apply, Cert.LibLayout.shapeCast_a_a1_apply, Cert.LibLaneMax.laneMax_apply]
    rfl
  show (z (ix2 p q) - broadcastTo ⟨2, ![R, N]⟩ (shapeCast ⟨2, ![R, 1]⟩
      (multiReduction .maximumf [1] ⟨1, ![R]⟩ z 0xFF800000#32 hred hφ hmax) hc1) hb1 (ix2 p q))
    - broadcastTo ⟨2, ![R, N]⟩ (log (shapeCast ⟨2, ![R, 1]⟩
        (multiReduction .add [1] ⟨1, ![R]⟩ (exp (subf z (broadcastTo ⟨2, ![R, N]⟩ (shapeCast ⟨2, ![R, 1]⟩
            (multiReduction .maximumf [1] ⟨1, ![R]⟩ z 0xFF800000#32 hred hφ hmax) hc1) hb1)))
          0x00000000#32 hred hφ hadd) hc1)) hb1 (ix2 p q) = _
  rw [hM q, Cert.LibLayout.broadcastTo_a1_ab_apply]
  show _ - Ideal.log (shapeCast ⟨2, ![R, 1]⟩
        (multiReduction .add [1] ⟨1, ![R]⟩ (exp (subf z (broadcastTo ⟨2, ![R, N]⟩ (shapeCast ⟨2, ![R, 1]⟩
            (multiReduction .maximumf [1] ⟨1, ![R]⟩ z 0xFF800000#32 hred hφ hmax) hc1) hb1)))
          0x00000000#32 hred hφ hadd) hc1 (ix2 p (0 : Fin 1))) = _
  rw [Cert.LibLayout.shapeCast_a_a1_apply, Cert.LibLayout.laneSum_apply]
  unfold lsmAt
  refine congrArg (fun s => (z (ix2 p q) - rowMax fun q' => z (ix2 p q')) - Ideal.log s) ?_
  refine Finset.sum_congr rfl fun k _ => ?_
  show Ideal.exp (z (ix2 p k) - broadcastTo ⟨2, ![R, N]⟩ (shapeCast ⟨2, ![R, 1]⟩
      (multiReduction .maximumf [1] ⟨1, ![R]⟩ z 0xFF800000#32 hred hφ hmax) hc1) hb1 (ix2 p k)) = _
  rw [hM k]

/-! ## The host's spelling -/

/-- The host's first product plus the bias broadcast twice, plus the second product, read at (p, q): the same three
    summands in another order. -/
theorem pre_of_dot {R K N : ℕ} (hN : N ≠ 1) (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (a x : FVec Ideal ⟨2, ![R, K]⟩ .f32) (Wl Wr : FVec Ideal ⟨2, ![K, N]⟩ .f32) (b : FVec Ideal ⟨1, ![N]⟩ .f32)
    (p : Fin R) (q : Fin N) :
    addf (addf (Host.dotGeneral d none a Wl)
        (broadcastInDim ⟨2, ![R, N]⟩ ![0, 1] h2 (broadcastInDim ⟨2, ![1, N]⟩ ![1] h1 b)))
      (Host.dotGeneral d none x Wr) (ix2 p q) = preAt a x Wl b Wr p q := by
  show Host.dotGeneral d none a Wl (ix2 p q)
      + broadcastInDim ⟨2, ![R, N]⟩ ![0, 1] h2 (broadcastInDim ⟨2, ![1, N]⟩ ![1] h1 b) (ix2 p q)
      + Host.dotGeneral d none x Wr (ix2 p q) = preAt a x Wl b Wr p q
  rw [Cert.LibMatmulRows.hostdot_rows d hrank hsize hl0 hl1 hr0 hr1 a Wl p q,
    Cert.LibMatmulRows.hostdot_rows d hrank hsize hl0 hl1 hr0 hr1 x Wr p q, Cert.LibBiasRows.bias_host hN b h1 h2 p q]
  exact add_right_comm _ _ _

/-- A maximum with a value the fold starts from changes nothing: the fold is at least its starting value. -/
theorem max_start_rowMax {N : ℕ} (z : Fin N → EReal) :
    max (Ideal.ofBits .f32 0xFF800000#32) (rowMax z) = rowMax z :=
  max_eq_right ((Finset.le_fold_max _).mpr (Or.inl le_rfl))

end Cert.Sage

end
-- ==== Proof.KernelPay.lean ====
/-
  What one grid point of each of the three kernels stores, as a function of the blocks it loads, on extended reals.

  A point loads a block of 2000 rows of the aggregated features and of the node features, both weight matrices and the
  bias. Rounding the operands of the matrix unit to a narrower format is no change on extended reals, and a cast of a
  block to its own shape is the identity, so the stored block is the layer of Cert.Sage applied to the loaded blocks:
  the rectified layer for the first two kernels, the log-softmax layer for the third.

  The four coordinate facts about each contraction record say that output entry (p, q) pairs row p of the left operand
  with column q of the right operand along the one contracted axis.
-/
import proofs.«127570_j29703993819225_1_alg».proof.Proof.Gen.KernelIdeal.Skeleton
import proofs.«127570_j29703993819225_1_alg».proof.Proof.LibSageLayers
import Idealize.ShloMosaic.Lib.Pipeline.Value
import Idealize.ShloMosaic.Lib.ValueIdx

noncomputable section

namespace Cert.KernelIdeal.Pay

open Cert.KernelIdeal Cert.KernelIdeal.Gen
open Idealize.ShloMosaic Idealize.ShloMosaic.ValueIdx

/-! ## The contraction records pair row p with column q -/

theorem dA_l0 (i : S2000x128.Idx) (s : dot_S2000x128_S128x128_S2000x128_1_0_0_1_n_n.contr.Idx) :
    (dot_S2000x128_S128x128_S2000x128_1_0_0_1_n_n.lhsIdx i s 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem dA_l1 (i : S2000x128.Idx) (s : dot_S2000x128_S128x128_S2000x128_1_0_0_1_n_n.contr.Idx) :
    (dot_S2000x128_S128x128_S2000x128_1_0_0_1_n_n.lhsIdx i s 1).val = (s ⟨0, by decide⟩).val :=
  dot_S2000x128_S128x128_S2000x128_1_0_0_1_n_n.lhsIdx_val_of_single rfl i s
theorem dA_r0 (i : S2000x128.Idx) (s : dot_S2000x128_S128x128_S2000x128_1_0_0_1_n_n.contr.Idx) :
    (dot_S2000x128_S128x128_S2000x128_1_0_0_1_n_n.rhsIdx i s 0).val = (s ⟨0, by decide⟩).val :=
  dot_S2000x128_S128x128_S2000x128_1_0_0_1_n_n.rhsIdx_val_of_single rfl i s
theorem dA_r1 (i : S2000x128.Idx) (s : dot_S2000x128_S128x128_S2000x128_1_0_0_1_n_n.contr.Idx) :
    (dot_S2000x128_S128x128_S2000x128_1_0_0_1_n_n.rhsIdx i s 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

theorem dB_l0 (i : S2000x32.Idx) (s : dot_S2000x128_S128x32_S2000x32_1_0_0_1_n_n.contr.Idx) :
    (dot_S2000x128_S128x32_S2000x32_1_0_0_1_n_n.lhsIdx i s 0).val = (i 0).val := by
  unfold DotDims.lhsIdx
  rw [dif_neg (show ¬(0 : Fin S2000x128.rank) ∈ dot_S2000x128_S128x32_S2000x32_1_0_0_1_n_n.lhsBatch by decide), dif_pos (show (0 : Fin S2000x128.rank) ∈ dot_S2000x128_S128x32_S2000x32_1_0_0_1_n_n.lhsNonContracting by decide)]
  rfl
theorem dB_l1 (i : S2000x32.Idx) (s : dot_S2000x128_S128x32_S2000x32_1_0_0_1_n_n.contr.Idx) :
    (dot_S2000x128_S128x32_S2000x32_1_0_0_1_n_n.lhsIdx i s 1).val = (s ⟨0, by decide⟩).val :=
  dot_S2000x128_S128x32_S2000x32_1_0_0_1_n_n.lhsIdx_val_of_single rfl i s
theorem dB_r0 (i : S2000x32.Idx) (s : dot_S2000x128_S128x32_S2000x32_1_0_0_1_n_n.contr.Idx) :
    (dot_S2000x128_S128x32_S2000x32_1_0_0_1_n_n.rhsIdx i s 0).val = (s ⟨0, by decide⟩).val :=
  dot_S2000x128_S128x32_S2000x32_1_0_0_1_n_n.rhsIdx_val_of_single rfl i s
theorem dB_r1 (i : S2000x32.Idx) (s : dot_S2000x128_S128x32_S2000x32_1_0_0_1_n_n.contr.Idx) :
    (dot_S2000x128_S128x32_S2000x32_1_0_0_1_n_n.rhsIdx i s 1).val = (i 1).val := by
  unfold DotDims.rhsIdx
  rw [dif_neg (show ¬(1 : Fin S128x32.rank) ∈ dot_S2000x128_S128x32_S2000x32_1_0_0_1_n_n.rhsBatch by decide), dif_pos (show (1 : Fin S128x32.rank) ∈ dot_S2000x128_S128x32_S2000x32_1_0_0_1_n_n.rhsNonContracting by decide)]
  rfl

/-! ## The stored blocks -/

/-- The first kernel's stored block is the rectified layer of its loaded blocks. -/
theorem pay0_eq (v0 v3 : Vec Ideal S2000x128 .f32) (v5 v7 : Vec Ideal S128x128 .f32) (v12 : Vec Ideal S128 .f32) :
    k0_pay1 (F := Ideal) v0 v3 v5 v7 v12 = Cert.Sage.reluLayer v0 v3 v5 v12 v7 := by
  funext j
  obtain ⟨p, q, rfl⟩ : ∃ (p : Fin 2000) (q : Fin 128), j = ix2 p q := ⟨j 0, j 1, eq_ix2 j⟩
  unfold k0_pay1
  rw [shapeCast_self]
  show max (addf (addf (matmul dot_S2000x128_S128x128_S2000x128_1_0_0_1_n_n none (truncf .bf16 v0 bitsLt_bf16_f32) (truncf .bf16 v5 bitsLt_bf16_f32)
        (constant (F := Ideal) S2000x128 .f32 0x00000000#32))
      (matmul dot_S2000x128_S128x128_S2000x128_1_0_0_1_n_n none (truncf .bf16 v3 bitsLt_bf16_f32) (truncf .bf16 v7 bitsLt_bf16_f32)
        (constant (F := Ideal) S2000x128 .f32 0x00000000#32)))
      (broadcastTo S2000x128 (shapeCast S1x128 v12 shapeCasts_S128_S1x128) broadcasts_S1x128_S2000x128) (ix2 p q))
      (Ideal.ofBits .f32 0x00000000#32) = max (Cert.Sage.preAt v0 v3 v5 v12 v7 p q) (Ideal.ofBits .f32 0x00000000#32)
  rw [Cert.Sage.pre_of_matmul dot_S2000x128_S128x128_S2000x128_1_0_0_1_n_n rfl rfl dA_l0 dA_l1 dA_r0 dA_r1 shapeCasts_S128_S1x128 broadcasts_S1x128_S2000x128]
  rfl

/-- The second kernel's stored block is the rectified layer of its loaded blocks. -/
theorem pay1_eq (v0 v3 : Vec Ideal S2000x128 .f32) (v6 v8 : Vec Ideal S128x128 .f32) (v13 : Vec Ideal S128 .f32) :
    k1_pay1 (F := Ideal) v0 v3 v6 v8 v13 = Cert.Sage.reluLayer v0 v3 v6 v13 v8 := by
  funext j
  obtain ⟨p, q, rfl⟩ : ∃ (p : Fin 2000) (q : Fin 128), j = ix2 p q := ⟨j 0, j 1, eq_ix2 j⟩
  unfold k1_pay1
  rw [shapeCast_self, shapeCast_self]
  show max (addf (addf (matmul dot_S2000x128_S128x128_S2000x128_1_0_0_1_n_n none (truncf .bf16 v0 bitsLt_bf16_f32) (truncf .bf16 v6 bitsLt_bf16_f32)
        (constant (F := Ideal) S2000x128 .f32 0x00000000#32))
      (matmul dot_S2000x128_S128x128_S2000x128_1_0_0_1_n_n none (truncf .bf16 v3 bitsLt_bf16_f32) (truncf .bf16 v8 bitsLt_bf16_f32)
        (constant (F := Ideal) S2000x128 .f32 0x00000000#32)))
      (broadcastTo S2000x128 (shapeCast S1x128 v13 shapeCasts_S128_S1x128) broadcasts_S1x128_S2000x128) (ix2 p q))
      (Ideal.ofBits .f32 0x00000000#32) = max (Cert.Sage.preAt v0 v3 v6 v13 v8 p q) (Ideal.ofBits .f32 0x00000000#32)
  rw [Cert.Sage.pre_of_matmul dot_S2000x128_S128x128_S2000x128_1_0_0_1_n_n rfl rfl dA_l0 dA_l1 dA_r0 dA_r1 shapeCasts_S128_S1x128 broadcasts_S1x128_S2000x128]
  rfl

/-- The third kernel's pre-activations, as one matrix of its loaded blocks. -/
def z2 (v0 v3 : Vec Ideal S2000x128 .f32) (v6 v8 : Vec Ideal S128x32 .f32) (v13 : Vec Ideal S32 .f32) : FVec Ideal S2000x32 .f32 :=
  addf (addf (matmul dot_S2000x128_S128x32_S2000x32_1_0_0_1_n_n none (truncf .bf16 v0 bitsLt_bf16_f32) (truncf .bf16 v6 bitsLt_bf16_f32)
        (constant (F := Ideal) S2000x32 .f32 0x00000000#32))
      (matmul dot_S2000x128_S128x32_S2000x32_1_0_0_1_n_n none (truncf .bf16 v3 bitsLt_bf16_f32) (truncf .bf16 v8 bitsLt_bf16_f32)
        (constant (F := Ideal) S2000x32 .f32 0x00000000#32)))
      (broadcastTo S2000x32 (shapeCast S1x32 v13 shapeCasts_S32_S1x32) broadcasts_S1x32_S2000x32)

theorem z2_at (v0 v3 : Vec Ideal S2000x128 .f32) (v6 v8 : Vec Ideal S128x32 .f32) (v13 : Vec Ideal S32 .f32) (p : Fin 2000) (q : Fin 32) :
    z2 v0 v3 v6 v8 v13 (ix2 p q) = Cert.Sage.preAt v0 v3 v6 v13 v8 p q := by
  unfold z2
  rw [Cert.Sage.pre_of_matmul dot_S2000x128_S128x32_S2000x32_1_0_0_1_n_n rfl rfl dB_l0 dB_l1 dB_r0 dB_r1 shapeCasts_S32_S1x32 broadcasts_S1x32_S2000x32]
  rfl

/-- The third kernel's stored block is the log-softmax layer of its loaded blocks. -/
theorem pay2_eq (v0 v3 : Vec Ideal S2000x128 .f32) (v6 v8 : Vec Ideal S128x32 .f32) (v13 : Vec Ideal S32 .f32) :
    k2_pay1 (F := Ideal) v0 v3 v6 v8 v13 = Cert.Sage.lsmLayer v0 v3 v6 v13 v8 := by
  funext j
  obtain ⟨p, q, rfl⟩ : ∃ (p : Fin 2000) (q : Fin 32), j = ix2 p q := ⟨j 0, j 1, eq_ix2 j⟩
  unfold k2_pay1
  rw [shapeCast_self, shapeCast_self]
  refine (Cert.Sage.lsm_of_lanes (z2 v0 v3 v6 v8 v13) reduces_S2000x32_S2000 shapeCasts_S2000_S2000x1
    broadcasts_S2000x1_S2000x32 (.inl rfl) rfl rfl p q).trans ?_
  show Cert.Sage.lsmAt (fun q' => z2 v0 v3 v6 v8 v13 (ix2 p q')) q = Cert.Sage.lsmAt (fun q' => Cert.Sage.preAt v0 v3 v6 v13 v8 p q') q
  rw [show (fun q' => z2 v0 v3 v6 v8 v13 (ix2 p q')) = fun q' => Cert.Sage.preAt v0 v3 v6 v13 v8 p q' from
    funext fun c => z2_at v0 v3 v6 v8 v13 p c]

end Cert.KernelIdeal.Pay

end
-- ==== Proof.LibSageRows.lean ====
/-
  GENERAL LEMMAS: row-locality of the two graph layers of LibSageLayers with every operand allowed to change: the result at (p, q) is determined by row p of the
  two feature matrices and by the entries of the weights and the bias. Stated entry by entry, so that each hypothesis is
  an equation between two extended reals.
-/
import proofs.«127570_j29703993819225_1_alg».proof.Proof.LibSageLayers

noncomputable section

namespace Cert.Sage

open Idealize.ShloMosaic Idealize.ShloMosaic.ValueIdx
open scoped BigOperators

/-- The pre-activation at (p, q) of one set of operands is that at (p', q) of another whose entries it reads agree. -/
theorem preAt_block {R R' K N : ℕ} (a x : Mat R K) (a' x' : Mat R' K) (Wl Wl' : Mat K N) (b b' : Vc N) (Wr Wr' : Mat K N)
    (p : Fin R) (p' : Fin R') (ha : ∀ k : Fin K, a (ix2 p k) = a' (ix2 p' k)) (hx : ∀ k : Fin K, x (ix2 p k) = x' (ix2 p' k))
    (hWl : ∀ (k : Fin K) (q : Fin N), Wl (ix2 k q) = Wl' (ix2 k q)) (hb : ∀ q : Fin N, b (ix1 q) = b' (ix1 q))
    (hWr : ∀ (k : Fin K) (q : Fin N), Wr (ix2 k q) = Wr' (ix2 k q)) (q : Fin N) :
    preAt a x Wl b Wr p q = preAt a' x' Wl' b' Wr' p' q := by
  unfold preAt
  have e1 : ∀ k : Fin K, a (ix2 p k) * Wl (ix2 k q) = a' (ix2 p' k) * Wl' (ix2 k q) := fun k => by rw [ha k, hWl k q]
  have e2 : ∀ k : Fin K, x (ix2 p k) * Wr (ix2 k q) = x' (ix2 p' k) * Wr' (ix2 k q) := fun k => by rw [hx k, hWr k q]
  rw [hb q, Finset.sum_congr rfl fun k _ => e1 k, Finset.sum_congr rfl fun k _ => e2 k]

/-- The rectified layer at (p, q) against (p', q). -/
theorem reluLayer_block {R R' K N : ℕ} (a x : Mat R K) (a' x' : Mat R' K) (Wl Wl' : Mat K N) (b b' : Vc N) (Wr Wr' : Mat K N)
    (p : Fin R) (p' : Fin R') (ha : ∀ k : Fin K, a (ix2 p k) = a' (ix2 p' k)) (hx : ∀ k : Fin K, x (ix2 p k) = x' (ix2 p' k))
    (hWl : ∀ (k : Fin K) (q : Fin N), Wl (ix2 k q) = Wl' (ix2 k q)) (hb : ∀ q : Fin N, b (ix1 q) = b' (ix1 q))
    (hWr : ∀ (k : Fin K) (q : Fin N), Wr (ix2 k q) = Wr' (ix2 k q)) (q : Fin N) :
    reluLayer a x Wl b Wr (ix2 p q) = reluLayer a' x' Wl' b' Wr' (ix2 p' q) := by
  show max (preAt a x Wl b Wr p q) _ = max (preAt a' x' Wl' b' Wr' p' q) _
  rw [preAt_block a x a' x' Wl Wl' b b' Wr Wr' p p' ha hx hWl hb hWr q]

/-- The log-softmax layer at (p, q) against (p', q). -/
theorem lsmLayer_block {R R' K N : ℕ} (a x : Mat R K) (a' x' : Mat R' K) (Wl Wl' : Mat K N) (b b' : Vc N) (Wr Wr' : Mat K N)
    (p : Fin R) (p' : Fin R') (ha : ∀ k : Fin K, a (ix2 p k) = a' (ix2 p' k)) (hx : ∀ k : Fin K, x (ix2 p k) = x' (ix2 p' k))
    (hWl : ∀ (k : Fin K) (q : Fin N), Wl (ix2 k q) = Wl' (ix2 k q)) (hb : ∀ q : Fin N, b (ix1 q) = b' (ix1 q))
    (hWr : ∀ (k : Fin K) (q : Fin N), Wr (ix2 k q) = Wr' (ix2 k q)) (q : Fin N) :
    lsmLayer a x Wl b Wr (ix2 p q) = lsmLayer a' x' Wl' b' Wr' (ix2 p' q) := by
  show lsmAt (fun q => preAt a x Wl b Wr p q) q = lsmAt (fun q => preAt a' x' Wl' b' Wr' p' q) q
  rw [show (fun q => preAt a x Wl b Wr p q) = fun q => preAt a' x' Wl' b' Wr' p' q from
    funext fun c => preAt_block a x a' x' Wl Wl' b b' Wr Wr' p p' ha hx hWl hb hWr c]

end Cert.Sage

end
-- ==== Proof.KernelBlocks.lean ====
/-
  From blocks to arrays. Each of the three kernels runs over 50 grid points; point t reads rows 2000·t … 2000·t + 1999 of
  the aggregated features and of the node features, the whole weight matrices and bias, and writes the same rows of its
  result. Because a layer's row depends only on the same row of the two feature matrices (Cert.Sage, row-locality), what
  point t writes is block t of the layer applied to the WHOLE arrays; the 50 blocks tile the 100000 rows, so after the
  last point the result array is that layer of the arrays the kernel was entered with.

  Everything is stated for arbitrary contents V of the buffers at the kernel's entry.
-/
import proofs.«127570_j29703993819225_1_alg».proof.Proof.Gen.KernelIdeal.Frame
import proofs.«127570_j29703993819225_1_alg».proof.Proof.KernelPay
import proofs.«127570_j29703993819225_1_alg».proof.Proof.LibSageRows
import Idealize.ShloMosaic.Lib.Pipeline.Value
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## Kernel 0: the first rectified layer -/

/-- The printed block index maps of kernel 0, decided over the grid: point t fetches row block t of the two feature
    arrays and writes row block t of the result; the weights and the bias are always block 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t of kernel 0 writes back is block t of the layer of the five arrays as the kernel finds them. -/
theorem flushed0 (c : Dev nD) (t : Fin cfg0.N) :
    (dat0 V c).flushed 5 t = ((cfg0.win 5).blk t).view.read (Elt Ideal)
      (Cert.Sage.reluLayer (V c main_v22) (V c main_arg0) (V c main_arg2) (V c main_arg3) (V c main_arg4)) := by
  show (cfg0.win 5).cut (grid0.coords t) ((dat0 V c).after 5 t) = _
  rw [after0_5]
  unfold out0_5
  rw [View.canon_unit_zero hz2]
  simp only [View.ld_unit_zero (S := S2000x128) hz2, View.ld_unit_zero (S := S128x128) hz2, View.ld_unit_zero (S := S128) hz1]
  rw [Cert.KernelIdeal.Pay.pay0_eq]
  obtain ⟨e00, e01, e10, e11, e20, e21, e30, e40, e41, e50, e51⟩ := idx_facts0 t
  have hN : cfg0.N = 50 := N_0
  have ht : t.val < 50 := hN ▸ t.isLt
  funext j
  obtain ⟨p, q, rfl⟩ : ∃ (p : Fin 2000) (q : Fin 128), j = ix2 p q := ⟨j 0, j 1, eq_ix2 j⟩
  have hE : ((cfg0.win 5).blk t).view.emb (ix2 p q) = ix2 (⟨t.val * 2000 + p.val, by omega⟩ : Fin 100000) q := by
    funext a; apply Fin.ext
    match a with
    | ⟨0, _⟩ => show win0_5.index t (0 : Fin 2) * 2000 + 1 * p.val = t.val * 2000 + p.val; omega
    | ⟨1, _⟩ => show win0_5.index t (1 : Fin 2) * 128 + 1 * q.val = q.val; omega
  show Cert.Sage.reluLayer (iblk0 V c 0 t) (iblk0 V c 1 t) (iblk0 V c 2 t) (iblk0 V c 3 t) (iblk0 V c 4 t) (ix2 p q)
    = Cert.Sage.reluLayer (V c main_v22) (V c main_arg0) (V c main_arg2) (V c main_arg3) (V c main_arg4) (((cfg0.win 5).blk t).view.emb (ix2 p q))
  rw [hE]
  refine Cert.Sage.reluLayer_block _ _ _ _ _ _ _ _ _ _ p _ (fun k => ?_) (fun k => ?_) (fun k n => ?_) (fun n => ?_) (fun k n => ?_) q
  · show V c main_v22 (((cfg0.win 0).blk t).view.emb (ix2 p k)) = V c main_v22 (ix2 (⟨t.val * 2000 + p.val, by omega⟩ : Fin 100000) k)
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  · show V c main_arg0 (((cfg0.win 1).blk t).view.emb (ix2 p k)) = V c main_arg0 (ix2 (⟨t.val * 2000 + p.val, by omega⟩ : Fin 100000) k)
    refine congrArg _ (funext fun a => Fin.ext ?_)
    match a with
    | ⟨0, _⟩ => show win0_1.index t (0 : Fin 2) * 2000 + 1 * p.val = t.val * 2000 + p.val; omega
    | ⟨1, _⟩ => show win0_1.index t (1 : Fin 2) * 128 + 1 * k.val = k.val; omega
  · show V c main_arg2 (((cfg0.win 2).blk t).view.emb (ix2 k n)) = V c main_arg2 (ix2 k n)
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * n.val = n.val; omega
  · show V c main_arg3 (((cfg0.win 3).blk t).view.emb (ix1 n)) = V c main_arg3 (ix1 n)
    refine congrArg _ (funext fun a => Fin.ext ?_)
    match a with
    | ⟨0, _⟩ => show win0_3.index t (0 : Fin 1) * 128 + 1 * n.val = n.val; omega
  · show V c main_arg4 (((cfg0.win 4).blk t).view.emb (ix2 k n)) = V c main_arg4 (ix2 k n)
    refine congrArg _ (funext fun a => Fin.ext ?_)
    match a with
    | ⟨0, _⟩ => show win0_4.index t (0 : Fin 2) * 128 + 1 * k.val = k.val; omega
    | ⟨1, _⟩ => show win0_4.index t (1 : Fin 2) * 128 + 1 * n.val = n.val; omega

/-- An index of the result array is in point t's block iff each coordinate is in the block's range on its axis. -/
theorem mem_blk0 (t : Fin cfg0.N) (i : S100000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v23).slice (win0_5.rect t)).set ↔ _
  rw [View.set_slice_whole, Rect.mem_set_unit]
  exact Iff.rfl

/-- Every row of the result lies in the block of the point numbered by the row divided by 2000. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  have hlt : (i 0).val / 2000 < cfg0.N := by omega
  obtain ⟨-, -, -, -, -, -, -, -, -, e50, e51⟩ := idx_facts0 ⟨(i 0).val / 2000, hlt⟩
  refine ⟨⟨(i 0).val / 2000, hlt⟩, flush0_5 _, ?_⟩
  rw [mem_blk0]
  intro a
  match a with
  | ⟨0, _⟩ =>
    show win0_5.index ⟨(i 0).val / 2000, hlt⟩ (0 : Fin 2) * 2000 ≤ (i 0).val
      ∧ (i 0).val < win0_5.index ⟨(i 0).val / 2000, hlt⟩ (0 : Fin 2) * 2000 + 2000
    rw [e50]
    show (i 0).val / 2000 * 2000 ≤ (i 0).val ∧ (i 0).val < (i 0).val / 2000 * 2000 + 2000
    omega
  | ⟨1, _⟩ =>
    show win0_5.index ⟨(i 0).val / 2000, hlt⟩ (1 : Fin 2) * 128 ≤ (i 1).val
      ∧ (i 1).val < win0_5.index ⟨(i 0).val / 2000, hlt⟩ (1 : Fin 2) * 128 + 128
    rw [e51]
    omega

/-- THE RESULT ARRAY of kernel 0 after its last point: the layer of the five arrays as the kernel finds them. -/
theorem final0 (c : Dev nD) : (dat0 V c).arrAt 5 cfg0.N
    = Cert.Sage.reluLayer (V c main_v22) (V c main_arg0) (V c main_arg2) (V c main_arg3) (V c main_arg4) :=
  (dat0 V c).arrAt_eq_of_cover 5 _ (fun t _ => flushed0 V c t) cover0

/-! ## Kernel 1: the second rectified layer -/

/-- The printed block index maps of kernel 1, decided over the grid: point t fetches row block t of the two feature
    arrays and writes row block t of the result; the weights and the bias are always block 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t of kernel 1 writes back is block t of the layer of the five arrays as the kernel finds them. -/
theorem flushed1 (c : Dev nD) (t : Fin cfg1.N) :
    (dat1 V c).flushed 5 t = ((cfg1.win 5).blk t).view.read (Elt Ideal)
      (Cert.Sage.reluLayer (V c main_v42) (V c main_v23) (V c main_arg5) (V c main_arg6) (V c main_arg7)) := by
  show (cfg1.win 5).cut (grid1.coords t) ((dat1 V c).after 5 t) = _
  rw [after1_5]
  unfold out1_5
  rw [View.canon_unit_zero hz2]
  simp only [View.ld_unit_zero (S := S2000x128) hz2, View.ld_unit_zero (S := S128x128) hz2, View.ld_unit_zero (S := S128) hz1]
  rw [Cert.KernelIdeal.Pay.pay1_eq]
  obtain ⟨e00, e01, e10, e11, e20, e21, e30, e40, e41, e50, e51⟩ := idx_facts1 t
  have hN : cfg1.N = 50 := N_1
  have ht : t.val < 50 := hN ▸ t.isLt
  funext j
  obtain ⟨p, q, rfl⟩ : ∃ (p : Fin 2000) (q : Fin 128), j = ix2 p q := ⟨j 0, j 1, eq_ix2 j⟩
  have hE : ((cfg1.win 5).blk t).view.emb (ix2 p q) = ix2 (⟨t.val * 2000 + p.val, by omega⟩ : Fin 100000) q := by
    funext a; apply Fin.ext
    match a with
    | ⟨0, _⟩ => show win1_5.index t (0 : Fin 2) * 2000 + 1 * p.val = t.val * 2000 + p.val; omega
    | ⟨1, _⟩ => show win1_5.index t (1 : Fin 2) * 128 + 1 * q.val = q.val; omega
  show Cert.Sage.reluLayer (iblk1 V c 0 t) (iblk1 V c 1 t) (iblk1 V c 2 t) (iblk1 V c 3 t) (iblk1 V c 4 t) (ix2 p q)
    = Cert.Sage.reluLayer (V c main_v42) (V c main_v23) (V c main_arg5) (V c main_arg6) (V c main_arg7) (((cfg1.win 5).blk t).view.emb (ix2 p q))
  rw [hE]
  refine Cert.Sage.reluLayer_block _ _ _ _ _ _ _ _ _ _ p _ (fun k => ?_) (fun k => ?_) (fun k n => ?_) (fun n => ?_) (fun k n => ?_) q
  · show V c main_v42 (((cfg1.win 0).blk t).view.emb (ix2 p k)) = V c main_v42 (ix2 (⟨t.val * 2000 + p.val, by omega⟩ : Fin 100000) k)
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * k.val = k.val; omega
  · show V c main_v23 (((cfg1.win 1).blk t).view.emb (ix2 p k)) = V c main_v23 (ix2 (⟨t.val * 2000 + p.val, by omega⟩ : Fin 100000) k)
    refine congrArg _ (funext fun a => Fin.ext ?_)
    match a with
    | ⟨0, _⟩ => show win1_1.index t (0 : Fin 2) * 2000 + 1 * p.val = t.val * 2000 + p.val; omega
    | ⟨1, _⟩ => show win1_1.index t (1 : Fin 2) * 128 + 1 * k.val = k.val; omega
  · show V c main_arg5 (((cfg1.win 2).blk t).view.emb (ix2 k n)) = V c main_arg5 (ix2 k n)
    refine congrArg _ (funext fun a => Fin.ext ?_)
    match a with
    | ⟨0, _⟩ => show win1_2.index t (0 : Fin 2) * 128 + 1 * k.val = k.val; omega
    | ⟨1, _⟩ => show win1_2.index t (1 : Fin 2) * 128 + 1 * n.val = n.val; omega
  · show V c main_arg6 (((cfg1.win 3).blk t).view.emb (ix1 n)) = V c main_arg6 (ix1 n)
    refine congrArg _ (funext fun a => Fin.ext ?_)
    match a with
    | ⟨0, _⟩ => show win1_3.index t (0 : Fin 1) * 128 + 1 * n.val = n.val; omega
  · show V c main_arg7 (((cfg1.win 4).blk t).view.emb (ix2 k n)) = V c main_arg7 (ix2 k n)
    refine congrArg _ (funext fun a => Fin.ext ?_)
    match a with
    | ⟨0, _⟩ => show win1_4.index t (0 : Fin 2) * 128 + 1 * k.val = k.val; omega
    | ⟨1, _⟩ => show win1_4.index t (1 : Fin 2) * 128 + 1 * n.val = n.val; omega

/-- An index of the result array is in point t's block iff each coordinate is in the block's range on its axis. -/
theorem mem_blk1 (t : Fin cfg1.N) (i : S100000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v43).slice (win1_5.rect t)).set ↔ _
  rw [View.set_slice_whole, Rect.mem_set_unit]
  exact Iff.rfl

/-- Every row of the result lies in the block of the point numbered by the row divided by 2000. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 50 := N_1
  have hlt : (i 0).val / 2000 < cfg1.N := by omega
  obtain ⟨-, -, -, -, -, -, -, -, -, e50, e51⟩ := idx_facts1 ⟨(i 0).val / 2000, hlt⟩
  refine ⟨⟨(i 0).val / 2000, hlt⟩, flush1_5 _, ?_⟩
  rw [mem_blk1]
  intro a
  match a with
  | ⟨0, _⟩ =>
    show win1_5.index ⟨(i 0).val / 2000, hlt⟩ (0 : Fin 2) * 2000 ≤ (i 0).val
      ∧ (i 0).val < win1_5.index ⟨(i 0).val / 2000, hlt⟩ (0 : Fin 2) * 2000 + 2000
    rw [e50]
    show (i 0).val / 2000 * 2000 ≤ (i 0).val ∧ (i 0).val < (i 0).val / 2000 * 2000 + 2000
    omega
  | ⟨1, _⟩ =>
    show win1_5.index ⟨(i 0).val / 2000, hlt⟩ (1 : Fin 2) * 128 ≤ (i 1).val
      ∧ (i 1).val < win1_5.index ⟨(i 0).val / 2000, hlt⟩ (1 : Fin 2) * 128 + 128
    rw [e51]
    omega

/-- THE RESULT ARRAY of kernel 1 after its last point: the layer of the five arrays as the kernel finds them. -/
theorem final1 (c : Dev nD) : (dat1 V c).arrAt 5 cfg1.N
    = Cert.Sage.reluLayer (V c main_v42) (V c main_v23) (V c main_arg5) (V c main_arg6) (V c main_arg7) :=
  (dat1 V c).arrAt_eq_of_cover 5 _ (fun t _ => flushed1 V c t) cover1

/-! ## Kernel 2: the log-softmax layer -/

/-- The printed block index maps of kernel 2, decided over the grid: point t fetches row block t of the two feature
    arrays and writes row block t of the result; the weights and the bias are always block 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t of kernel 2 writes back is block t of the layer of the five arrays as the kernel finds them. -/
theorem flushed2 (c : Dev nD) (t : Fin cfg2.N) :
    (dat2 V c).flushed 5 t = ((cfg2.win 5).blk t).view.read (Elt Ideal)
      (Cert.Sage.lsmLayer (V c main_v62) (V c main_v43) (V c main_arg8) (V c main_arg9) (V c main_arg10)) := by
  show (cfg2.win 5).cut (grid2.coords t) ((dat2 V c).after 5 t) = _
  rw [after2_5]
  unfold out2_5
  rw [View.canon_unit_zero hz2]
  simp only [View.ld_unit_zero (S := S2000x128) hz2, View.ld_unit_zero (S := S128x32) hz2, View.ld_unit_zero (S := S32) hz1]
  rw [Cert.KernelIdeal.Pay.pay2_eq]
  obtain ⟨e00, e01, e10, e11, e20, e21, e30, e40, e41, e50, e51⟩ := idx_facts2 t
  have hN : cfg2.N = 50 := N_2
  have ht : t.val < 50 := hN ▸ t.isLt
  funext j
  obtain ⟨p, q, rfl⟩ : ∃ (p : Fin 2000) (q : Fin 32), j = ix2 p q := ⟨j 0, j 1, eq_ix2 j⟩
  have hE : ((cfg2.win 5).blk t).view.emb (ix2 p q) = ix2 (⟨t.val * 2000 + p.val, by omega⟩ : Fin 100000) q := by
    funext a; apply Fin.ext
    match a with
    | ⟨0, _⟩ => show win2_5.index t (0 : Fin 2) * 2000 + 1 * p.val = t.val * 2000 + p.val; omega
    | ⟨1, _⟩ => show win2_5.index t (1 : Fin 2) * 32 + 1 * q.val = q.val; omega
  show Cert.Sage.lsmLayer (iblk2 V c 0 t) (iblk2 V c 1 t) (iblk2 V c 2 t) (iblk2 V c 3 t) (iblk2 V c 4 t) (ix2 p q)
    = Cert.Sage.lsmLayer (V c main_v62) (V c main_v43) (V c main_arg8) (V c main_arg9) (V c main_arg10) (((cfg2.win 5).blk t).view.emb (ix2 p q))
  rw [hE]
  refine Cert.Sage.lsmLayer_block _ _ _ _ _ _ _ _ _ _ p _ (fun k => ?_) (fun k => ?_) (fun k n => ?_) (fun n => ?_) (fun k n => ?_) q
  · show V c main_v62 (((cfg2.win 0).blk t).view.emb (ix2 p k)) = V c main_v62 (ix2 (⟨t.val * 2000 + p.val, by omega⟩ : Fin 100000) k)
    refine congrArg _ (funext fun a => Fin.ext ?_)
    match a with
    | ⟨0, _⟩ => show win2_0.index t (0 : Fin 2) * 2000 + 1 * p.val = t.val * 2000 + p.val; omega
    | ⟨1, _⟩ => show win2_0.index t (1 : Fin 2) * 128 + 1 * k.val = k.val; omega
  · show V c main_v43 (((cfg2.win 1).blk t).view.emb (ix2 p k)) = V c main_v43 (ix2 (⟨t.val * 2000 + p.val, by omega⟩ : Fin 100000) k)
    refine congrArg _ (funext fun a => Fin.ext ?_)
    match a with
    | ⟨0, _⟩ => show win2_1.index t (0 : Fin 2) * 2000 + 1 * p.val = t.val * 2000 + p.val; omega
    | ⟨1, _⟩ => show win2_1.index t (1 : Fin 2) * 128 + 1 * k.val = k.val; omega
  · show V c main_arg8 (((cfg2.win 2).blk t).view.emb (ix2 k n)) = V c main_arg8 (ix2 k n)
    refine congrArg _ (funext fun a => Fin.ext ?_)
    match a with
    | ⟨0, _⟩ => show win2_2.index t (0 : Fin 2) * 128 + 1 * k.val = k.val; omega
    | ⟨1, _⟩ => show win2_2.index t (1 : Fin 2) * 32 + 1 * n.val = n.val; omega
  · show V c main_arg9 (((cfg2.win 3).blk t).view.emb (ix1 n)) = V c main_arg9 (ix1 n)
    refine congrArg _ (funext fun a => Fin.ext ?_)
    match a with
    | ⟨0, _⟩ => show win2_3.index t (0 : Fin 1) * 32 + 1 * n.val = n.val; omega
  · show V c main_arg10 (((cfg2.win 4).blk t).view.emb (ix2 k n)) = V c main_arg10 (ix2 k n)
    refine congrArg _ (funext fun a => Fin.ext ?_)
    match a with
    | ⟨0, _⟩ => show win2_4.index t (0 : Fin 2) * 128 + 1 * k.val = k.val; omega
    | ⟨1, _⟩ => show win2_4.index t (1 : Fin 2) * 32 + 1 * n.val = n.val; omega

/-- An index of the result array is in point t's block iff each coordinate is in the block's range on its axis. -/
theorem mem_blk2 (t : Fin cfg2.N) (i : S100000x32.Idx) :
    i ∈ ((cfg2.win 5).blk t).view.set ↔ ∀ a : Fin 2, win2_5.index t a * S2000x32.size a ≤ (i a).val
      ∧ (i a).val < win2_5.index t a * S2000x32.size a + S2000x32.size a := by
  show i ∈ ((View.whole main_v63).slice (win2_5.rect t)).set ↔ _
  rw [View.set_slice_whole, Rect.mem_set_unit]
  exact Iff.rfl

/-- Every row of the result lies in the block of the point numbered by the row divided by 2000. -/
theorem cover2 (i : S100000x32.Idx) :
    ∃ t : Fin cfg2.N, (cfg2.win 5).flush t = true ∧ i ∈ ((cfg2.win 5).blk t).view.set := by
  have hi0 : (i 0).val < 100000 := (i 0).isLt
  have hi1 : (i 1).val < 32 := (i 1).isLt
  have hN : cfg2.N = 50 := N_2
  have hlt : (i 0).val / 2000 < cfg2.N := by omega
  obtain ⟨-, -, -, -, -, -, -, -, -, e50, e51⟩ := idx_facts2 ⟨(i 0).val / 2000, hlt⟩
  refine ⟨⟨(i 0).val / 2000, hlt⟩, flush2_5 _, ?_⟩
  rw [mem_blk2]
  intro a
  match a with
  | ⟨0, _⟩ =>
    show win2_5.index ⟨(i 0).val / 2000, hlt⟩ (0 : Fin 2) * 2000 ≤ (i 0).val
      ∧ (i 0).val < win2_5.index ⟨(i 0).val / 2000, hlt⟩ (0 : Fin 2) * 2000 + 2000
    rw [e50]
    show (i 0).val / 2000 * 2000 ≤ (i 0).val ∧ (i 0).val < (i 0).val / 2000 * 2000 + 2000
    omega
  | ⟨1, _⟩ =>
    show win2_5.index ⟨(i 0).val / 2000, hlt⟩ (1 : Fin 2) * 32 ≤ (i 1).val
      ∧ (i 1).val < win2_5.index ⟨(i 0).val / 2000, hlt⟩ (1 : Fin 2) * 32 + 32
    rw [e51]
    omega

/-- THE RESULT ARRAY of kernel 2 after its last point: the layer of the five arrays as the kernel finds them. -/
theorem final2 (c : Dev nD) : (dat2 V c).arrAt 5 cfg2.N
    = Cert.Sage.lsmLayer (V c main_v62) (V c main_v43) (V c main_arg8) (V c main_arg9) (V c main_arg10) :=
  (dat2 V c).arrAt_eq_of_cover 5 _ (fun t _ => flushed2 V c t) cover2

end Cert.KernelIdeal.Blocks

end
-- ==== Proof.SageNet.lean ====
/-
  The whole network as one function of the eleven argument arrays.

  The graph enters through the edge table: row 0 holds each edge's source node, row 1 its destination. The MEAN
  AGGREGATION of a feature matrix gathers the source node's row for every edge (a negative node number counted from the
  end), adds the gathered rows into their destination nodes, and divides each node's sum by the number of edges that
  arrive there, or by one if none does. Nothing below opens the gather or the scatter-add: the kernel program and the
  reference apply the same aggregation to the same operands, so it is carried as one named function.

  The network is three layers, each the aggregation followed by a dense layer of Cert.Sage on the aggregated and the
  original features: rectified, rectified, log-softmax.
-/
import proofs.«127570_j29703993819225_1_alg».proof.Proof.Gen.KernelIdeal
import proofs.«127570_j29703993819225_1_alg».proof.Proof.LibSageLayers

noncomputable section

namespace Cert.KernelIdeal.Net

open Cert.KernelIdeal Cert.KernelIdeal.Gen
open Idealize.ShloMosaic

variable {F : FTy → Type} [FloatOps F]

/-- Row 0 of the edge table: each edge's source node. -/
def srcOf (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- Row 1 of the edge table: each edge's destination node. -/
def dstOf (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- The mean aggregation: gather the source rows, add them into their destinations, divide by max(in-degree, 1). -/
def aggMean (feat : (⟨S100000x128, .f32⟩ : BufTy).Contents (Elt F)) (src dst : (⟨S1600000, .i32⟩ : BufTy).Contents (Elt F)) : (⟨S100000x128, .f32⟩ : BufTy).Contents (Elt F) :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 feat
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 dst)
            (broadcastInDim S1600000 ![] bcast_S_S1600000 (constant S_ .f32 0x3F800000#32)))
          (broadcastInDim S100000 ![] bcast_S_S100000 (constant S_ .f32 0x3F800000#32)))))

/-- The first layer's result. -/
def h1 (x0 : (⟨S100000x128, .f32⟩ : BufTy).Contents (Elt Ideal)) (x1 : (⟨S2x1600000, .i32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal)) : (⟨S100000x128, .f32⟩ : BufTy).Contents (Elt Ideal) :=
  Cert.Sage.reluLayer (aggMean (F := Ideal) x0 (srcOf x1) (dstOf x1)) x0 x2 x3 x4

/-- The second layer's result. -/
def h2 (x0 : (⟨S100000x128, .f32⟩ : BufTy).Contents (Elt Ideal)) (x1 : (⟨S2x1600000, .i32⟩ : BufTy).Contents (Elt Ideal)) (x2 : (⟨S128x128, .f32⟩ : BufTy).Contents (Elt Ideal))
    (x3 : (⟨S128, .f32⟩ : BufTy).Contents (Elt Ideal)) (x4 x5 : (⟨S128x128, .f32⟩ : BufTy).Contents (Elt Ideal)) (x6 : (⟨S128, .f32⟩ : BufTy).Contents (Elt Ideal))
    (x7 : (⟨S128x128, .f32⟩ : BufTy).Contents (Elt Ideal)) : (⟨S100000x128, .f32⟩ : BufTy).Contents (Elt Ideal) :=
  Cert.Sage.reluLayer (aggMean (F := Ideal) (h1 x0 x1 x2 x3 x4) (srcOf x1) (dstOf x1)) (h1 x0 x1 x2 x3 x4) x5 x6 x7

/-- The network's result. -/
def out (x0 : (⟨S100000x128, .f32⟩ : BufTy).Contents (Elt Ideal)) (x1 : (⟨S2x1600000, .i32⟩ : BufTy).Contents (Elt Ideal)) (x2 : (⟨S128x128, .f32⟩ : BufTy).Contents (Elt Ideal))
    (x3 : (⟨S128, .f32⟩ : BufTy).Contents (Elt Ideal)) (x4 x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128x32, .f32⟩ : BufTy).Contents (Elt Ideal)) (x9 : (⟨S32, .f32⟩ : BufTy).Contents (Elt Ideal))
    (x10 : (⟨S128x32, .f32⟩ : BufTy).Contents (Elt Ideal)) : (⟨S100000x32, .f32⟩ : BufTy).Contents (Elt Ideal) :=
  Cert.Sage.lsmLayer (aggMean (F := Ideal) (h2 x0 x1 x2 x3 x4 x5 x6 x7) (srcOf x1) (dstOf x1)) (h2 x0 x1 x2 x3 x4 x5 x6 x7) x8 x9 x10

end Cert.KernelIdeal.Net

end
-- ==== Proof.KernelChain.lean ====
/-
  The result of the idealized kernel program as the network of its arguments.

  The buffer contents at the six boundaries of @main are a fold from the launch memory: a stretch of host operations
  (the mean aggregation, and for the first stretch also the two rows of the edge table), then a kernel, three times.
  Read back through the fold:
    * after stretch j the aggregated-features buffer holds the mean aggregation of the current features, and every
      buffer the stretch does not write keeps its contents;
    * after kernel j its result buffer holds the dense layer of its five operand buffers, and every buffer that is not one
      of its six arrays keeps its contents, as does each of its five operand arrays.
  So the last result buffer holds the third layer of the aggregation of the second layer of the aggregation of the first.
-/
import proofs.«127570_j29703993819225_1_alg».proof.Proof.Gen.KernelIdeal.Frame
import proofs.«127570_j29703993819225_1_alg».proof.Proof.KernelBlocks
import proofs.«127570_j29703993819225_1_alg».proof.Proof.SageNet
import Idealize.ShloMosaic.Lib.StableHlo.Run

set_option maxRecDepth 16384

noncomputable section

namespace Cert.KernelIdeal.Chain

open Cert.KernelIdeal Cert.KernelIdeal.Gen Cert.KernelIdeal.Net
open Idealize.ShloMosaic Idealize.ShloMosaic.TcCoe Idealize.ShloMosaic.StableHlo Idealize.SL.Sem
open Idealize.ShloMosaic.Pipeline (Dat Cfg Window)

variable (m : (ℓ : Loc nD τ sig) → Buf (Elt Ideal) ℓ) (ρ : Dev nD → PrngReg) (c : Dev nD)

/-! ## The first stretch of host operations, from the launch memory -/

theorem s0_src : W1 m ρ c (Proc.devRef .tc main_v1) = srcOf (m ((c : Thread nD τ).loc main_arg1)) := by
  show StableHlo.after hostOps0 (W0 m ρ c) (Proc.devRef .tc main_v1) = _
  after_results <;> rfl
theorem s0_dst : W1 m ρ c (Proc.devRef .tc main_v3) = dstOf (m ((c : Thread nD τ).loc main_arg1)) := by
  show StableHlo.after hostOps0 (W0 m ρ c) (Proc.devRef .tc main_v3) = _
  after_results <;> rfl
set_option maxHeartbeats 8000000 in
theorem s0_agg : W1 m ρ c (Proc.devRef .tc main_v22)
    = aggMean (F := Ideal) (m ((c : Thread nD τ).loc main_arg0)) (srcOf (m ((c : Thread nD τ).loc main_arg1))) (dstOf (m ((c : Thread nD τ).loc main_arg1))) := by
  show StableHlo.after hostOps0 (W0 m ρ c) (Proc.devRef .tc main_v22) = _
  after_results_simp <;> rfl
theorem s0_arg0 : W1 m ρ c (Proc.devRef .tc main_arg0) = (m ((c : Thread nD τ).loc main_arg0)) := by
  show StableHlo.after hostOps0 (W0 m ρ c) (Proc.devRef .tc main_arg0) = _
  after_results <;> rfl
theorem s0_arg2 : W1 m ρ c (Proc.devRef .tc main_arg2) = (m ((c : Thread nD τ).loc main_arg2)) := by
  show StableHlo.after hostOps0 (W0 m ρ c) (Proc.devRef .tc main_arg2) = _
  after_results <;> rfl
theorem s0_arg3 : W1 m ρ c (Proc.devRef .tc main_arg3) = (m ((c : Thread nD τ).loc main_arg3)) := by
  show StableHlo.after hostOps0 (W0 m ρ c) (Proc.devRef .tc main_arg3) = _
  after_results <;> rfl
theorem s0_arg4 : W1 m ρ c (Proc.devRef .tc main_arg4) = (m ((c : Thread nD τ).loc main_arg4)) := by
  show StableHlo.after hostOps0 (W0 m ρ c) (Proc.devRef .tc main_arg4) = _
  after_results <;> rfl
theorem s0_arg5 : W1 m ρ c (Proc.devRef .tc main_arg5) = (m ((c : Thread nD τ).loc main_arg5)) := by
  show StableHlo.after hostOps0 (W0 m ρ c) (Proc.devRef .tc main_arg5) = _
  after_results <;> rfl
theorem s0_arg6 : W1 m ρ c (Proc.devRef .tc main_arg6) = (m ((c : Thread nD τ).loc main_arg6)) := by
  show StableHlo.after hostOps0 (W0 m ρ c) (Proc.devRef .tc main_arg6) = _
  after_results <;> rfl
theorem s0_arg7 : W1 m ρ c (Proc.devRef .tc main_arg7) = (m ((c : Thread nD τ).loc main_arg7)) := by
  show StableHlo.after hostOps0 (W0 m ρ c) (Proc.devRef .tc main_arg7) = _
  after_results <;> rfl
theorem s0_arg8 : W1 m ρ c (Proc.devRef .tc main_arg8) = (m ((c : Thread nD τ).loc main_arg8)) := by
  show StableHlo.after hostOps0 (W0 m ρ c) (Proc.devRef .tc main_arg8) = _
  after_results <;> rfl
theorem s0_arg9 : W1 m ρ c (Proc.devRef .tc main_arg9) = (m ((c : Thread nD τ).loc main_arg9)) := by
  show StableHlo.after hostOps0 (W0 m ρ c) (Proc.devRef .tc main_arg9) = _
  after_results <;> rfl
theorem s0_arg10 : W1 m ρ c (Proc.devRef .tc main_arg10) = (m ((c : Thread nD τ).loc main_arg10)) := by
  show StableHlo.after hostOps0 (W0 m ρ c) (Proc.devRef .tc main_arg10) = _
  after_results <;> rfl

/-! ## The first kernel -/

theorem b2_h : W2 m ρ c (Proc.devRef .tc main_v23) = h1 (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ((Cert.KernelIdeal.Blocks.final0 (V1 m ρ) c).trans ?_)
  show Cert.Sage.reluLayer (W1 m ρ c (Proc.devRef .tc main_v22)) (W1 m ρ c (Proc.devRef .tc main_arg0)) (W1 m ρ c (Proc.devRef .tc main_arg2))
    (W1 m ρ c (Proc.devRef .tc main_arg3)) (W1 m ρ c (Proc.devRef .tc main_arg4)) = _
  rw [s0_agg, s0_arg0, s0_arg2, s0_arg3, s0_arg4]
  rfl
theorem b2_src : W2 m ρ c (Proc.devRef .tc main_v1) = (srcOf (m ((c : Thread nD τ).loc main_arg1))) :=
  (W2_of_ne m ρ c main_v1 (by decide)).trans (s0_src m ρ c)
theorem b2_dst : W2 m ρ c (Proc.devRef .tc main_v3) = (dstOf (m ((c : Thread nD τ).loc main_arg1))) :=
  (W2_of_ne m ρ c main_v3 (by decide)).trans (s0_dst m ρ c)
theorem b2_arg5 : W2 m ρ c (Proc.devRef .tc main_arg5) = (m ((c : Thread nD τ).loc main_arg5)) :=
  (W2_of_ne m ρ c main_arg5 (by decide)).trans (s0_arg5 m ρ c)
theorem b2_arg6 : W2 m ρ c (Proc.devRef .tc main_arg6) = (m ((c : Thread nD τ).loc main_arg6)) :=
  (W2_of_ne m ρ c main_arg6 (by decide)).trans (s0_arg6 m ρ c)
theorem b2_arg7 : W2 m ρ c (Proc.devRef .tc main_arg7) = (m ((c : Thread nD τ).loc main_arg7)) :=
  (W2_of_ne m ρ c main_arg7 (by decide)).trans (s0_arg7 m ρ c)
theorem b2_arg8 : W2 m ρ c (Proc.devRef .tc main_arg8) = (m ((c : Thread nD τ).loc main_arg8)) :=
  (W2_of_ne m ρ c main_arg8 (by decide)).trans (s0_arg8 m ρ c)
theorem b2_arg9 : W2 m ρ c (Proc.devRef .tc main_arg9) = (m ((c : Thread nD τ).loc main_arg9)) :=
  (W2_of_ne m ρ c main_arg9 (by decide)).trans (s0_arg9 m ρ c)
theorem b2_arg10 : W2 m ρ c (Proc.devRef .tc main_arg10) = (m ((c : Thread nD τ).loc main_arg10)) :=
  (W2_of_ne m ρ c main_arg10 (by decide)).trans (s0_arg10 m ρ c)

/-! ## The second stretch of host operations -/

set_option maxHeartbeats 8000000 in
theorem s1_agg : W3 m ρ c (Proc.devRef .tc main_v42)
    = aggMean (F := Ideal) (W2 m ρ c (Proc.devRef .tc main_v23)) (W2 m ρ c (Proc.devRef .tc main_v1)) (W2 m ρ c (Proc.devRef .tc main_v3)) := by
  show StableHlo.after hostOps1 (W2 m ρ c) (Proc.devRef .tc main_v42) = _
  after_results_simp <;> rfl
theorem b3_agg : W3 m ρ c (Proc.devRef .tc main_v42) = aggMean (F := Ideal) (h1 (m ((c : Thread nD τ).loc main_arg0)) (m ((c : Thread nD τ).loc main_arg1)) (m ((c : Thread nD τ).loc main_arg2)) (m ((c : Thread nD τ).loc main_arg3)) (m ((c : Thread nD τ).loc main_arg4))) (srcOf (m ((c : Thread nD τ).loc main_arg1))) (dstOf (m ((c : Thread nD τ).loc main_arg1))) := by
  rw [s1_agg, b2_h, b2_src, b2_dst]
theorem b3_h : W3 m ρ c (Proc.devRef .tc main_v23) = h1 (m ((c : Thread nD τ).loc main_arg0)) (m ((c : Thread nD τ).loc main_arg1)) (m ((c : Thread nD τ).loc main_arg2)) (m ((c : Thread nD τ).loc main_arg3)) (m ((c : Thread nD τ).loc main_arg4)) := by
  refine Eq.trans ?_ (b2_h m ρ c)
  show StableHlo.after hostOps1 (W2 m ρ c) (Proc.devRef .tc main_v23) = W2 m ρ c (Proc.devRef .tc main_v23)
  after_results <;> rfl
theorem b3_src : W3 m ρ c (Proc.devRef .tc main_v1) = (srcOf (m ((c : Thread nD τ).loc main_arg1))) := by
  refine Eq.trans ?_ (b2_src m ρ c)
  show StableHlo.after hostOps1 (W2 m ρ c) (Proc.devRef .tc main_v1) = W2 m ρ c (Proc.devRef .tc main_v1)
  after_results <;> rfl
theorem b3_dst : W3 m ρ c (Proc.devRef .tc main_v3) = (dstOf (m ((c : Thread nD τ).loc main_arg1))) := by
  refine Eq.trans ?_ (b2_dst m ρ c)
  show StableHlo.after hostOps1 (W2 m ρ c) (Proc.devRef .tc main_v3) = W2 m ρ c (Proc.devRef .tc main_v3)
  after_results <;> rfl
theorem b3_arg5 : W3 m ρ c (Proc.devRef .tc main_arg5) = (m ((c : Thread nD τ).loc main_arg5)) := by
  refine Eq.trans ?_ (b2_arg5 m ρ c)
  show StableHlo.after hostOps1 (W2 m ρ c) (Proc.devRef .tc main_arg5) = W2 m ρ c (Proc.devRef .tc main_arg5)
  after_results <;> rfl
theorem b3_arg6 : W3 m ρ c (Proc.devRef .tc main_arg6) = (m ((c : Thread nD τ).loc main_arg6)) := by
  refine Eq.trans ?_ (b2_arg6 m ρ c)
  show StableHlo.after hostOps1 (W2 m ρ c) (Proc.devRef .tc main_arg6) = W2 m ρ c (Proc.devRef .tc main_arg6)
  after_results <;> rfl
theorem b3_arg7 : W3 m ρ c (Proc.devRef .tc main_arg7) = (m ((c : Thread nD τ).loc main_arg7)) := by
  refine Eq.trans ?_ (b2_arg7 m ρ c)
  show StableHlo.after hostOps1 (W2 m ρ c) (Proc.devRef .tc main_arg7) = W2 m ρ c (Proc.devRef .tc main_arg7)
  after_results <;> rfl
theorem b3_arg8 : W3 m ρ c (Proc.devRef .tc main_arg8) = (m ((c : Thread nD τ).loc main_arg8)) := by
  refine Eq.trans ?_ (b2_arg8 m ρ c)
  show StableHlo.after hostOps1 (W2 m ρ c) (Proc.devRef .tc main_arg8) = W2 m ρ c (Proc.devRef .tc main_arg8)
  after_results <;> rfl
theorem b3_arg9 : W3 m ρ c (Proc.devRef .tc main_arg9) = (m ((c : Thread nD τ).loc main_arg9)) := by
  refine Eq.trans ?_ (b2_arg9 m ρ c)
  show StableHlo.after hostOps1 (W2 m ρ c) (Proc.devRef .tc main_arg9) = W2 m ρ c (Proc.devRef .tc main_arg9)
  after_results <;> rfl
theorem b3_arg10 : W3 m ρ c (Proc.devRef .tc main_arg10) = (m ((c : Thread nD τ).loc main_arg10)) := by
  refine Eq.trans ?_ (b2_arg10 m ρ c)
  show StableHlo.after hostOps1 (W2 m ρ c) (Proc.devRef .tc main_arg10) = W2 m ρ c (Proc.devRef .tc main_arg10)
  after_results <;> rfl

/-! ## The second kernel -/

theorem b4_h : W4 m ρ c (Proc.devRef .tc main_v43) = h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ((Cert.KernelIdeal.Blocks.final1 (V3 m ρ) c).trans ?_)
  show Cert.Sage.reluLayer (W3 m ρ c (Proc.devRef .tc main_v42)) (W3 m ρ c (Proc.devRef .tc main_v23)) (W3 m ρ c (Proc.devRef .tc main_arg5))
    (W3 m ρ c (Proc.devRef .tc main_arg6)) (W3 m ρ c (Proc.devRef .tc main_arg7)) = _
  rw [b3_agg, b3_h, b3_arg5, b3_arg6, b3_arg7]
  rfl
theorem b4_src : W4 m ρ c (Proc.devRef .tc main_v1) = (srcOf (m ((c : Thread nD τ).loc main_arg1))) :=
  (W4_of_ne m ρ c main_v1 (by decide)).trans (b3_src m ρ c)
theorem b4_dst : W4 m ρ c (Proc.devRef .tc main_v3) = (dstOf (m ((c : Thread nD τ).loc main_arg1))) :=
  (W4_of_ne m ρ c main_v3 (by decide)).trans (b3_dst m ρ c)
theorem b4_arg8 : W4 m ρ c (Proc.devRef .tc main_arg8) = (m ((c : Thread nD τ).loc main_arg8)) :=
  (W4_of_ne m ρ c main_arg8 (by decide)).trans (b3_arg8 m ρ c)
theorem b4_arg9 : W4 m ρ c (Proc.devRef .tc main_arg9) = (m ((c : Thread nD τ).loc main_arg9)) :=
  (W4_of_ne m ρ c main_arg9 (by decide)).trans (b3_arg9 m ρ c)
theorem b4_arg10 : W4 m ρ c (Proc.devRef .tc main_arg10) = (m ((c : Thread nD τ).loc main_arg10)) :=
  (W4_of_ne m ρ c main_arg10 (by decide)).trans (b3_arg10 m ρ c)

/-! ## The third stretch of host operations -/

set_option maxHeartbeats 8000000 in
theorem s2_agg : W5 m ρ c (Proc.devRef .tc main_v62)
    = aggMean (F := Ideal) (W4 m ρ c (Proc.devRef .tc main_v43)) (W4 m ρ c (Proc.devRef .tc main_v1)) (W4 m ρ c (Proc.devRef .tc main_v3)) := by
  show StableHlo.after hostOps2 (W4 m ρ c) (Proc.devRef .tc main_v62) = _
  after_results_simp <;> rfl
theorem b5_agg : W5 m ρ c (Proc.devRef .tc main_v62) = aggMean (F := Ideal) (h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (srcOf (m ((c : Thread nD τ).loc main_arg1))) (dstOf (m ((c : Thread nD τ).loc main_arg1))) := by
  rw [s2_agg, b4_h, b4_src, b4_dst]
theorem b5_h : W5 m ρ c (Proc.devRef .tc main_v43) = h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine Eq.trans ?_ (b4_h m ρ c)
  show StableHlo.after hostOps2 (W4 m ρ c) (Proc.devRef .tc main_v43) = W4 m ρ c (Proc.devRef .tc main_v43)
  after_results <;> rfl
theorem b5_arg8 : W5 m ρ c (Proc.devRef .tc main_arg8) = (m ((c : Thread nD τ).loc main_arg8)) := by
  refine Eq.trans ?_ (b4_arg8 m ρ c)
  show StableHlo.after hostOps2 (W4 m ρ c) (Proc.devRef .tc main_arg8) = W4 m ρ c (Proc.devRef .tc main_arg8)
  after_results <;> rfl
theorem b5_arg9 : W5 m ρ c (Proc.devRef .tc main_arg9) = (m ((c : Thread nD τ).loc main_arg9)) := by
  refine Eq.trans ?_ (b4_arg9 m ρ c)
  show StableHlo.after hostOps2 (W4 m ρ c) (Proc.devRef .tc main_arg9) = W4 m ρ c (Proc.devRef .tc main_arg9)
  after_results <;> rfl
theorem b5_arg10 : W5 m ρ c (Proc.devRef .tc main_arg10) = (m ((c : Thread nD τ).loc main_arg10)) := by
  refine Eq.trans ?_ (b4_arg10 m ρ c)
  show StableHlo.after hostOps2 (W4 m ρ c) (Proc.devRef .tc main_arg10) = W4 m ρ c (Proc.devRef .tc main_arg10)
  after_results <;> rfl

/-! ## The third kernel: the result -/

/-- The result buffer after the run holds the network of the argument arrays. -/
theorem result : W6 m ρ c (Proc.devRef .tc main_v63) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W6_arr m ρ c 5).trans ((Cert.KernelIdeal.Blocks.final2 (V5 m ρ) c).trans ?_)
  show Cert.Sage.lsmLayer (W5 m ρ c (Proc.devRef .tc main_v62)) (W5 m ρ c (Proc.devRef .tc main_v43)) (W5 m ρ c (Proc.devRef .tc main_arg8))
    (W5 m ρ c (Proc.devRef .tc main_arg9)) (W5 m ρ c (Proc.devRef .tc main_arg10)) = _
  rw [b5_agg, b5_h, b5_arg8, b5_arg9, b5_arg10]
  rfl

end Cert.KernelIdeal.Chain

end
-- ==== Proof.LibTypedRefs.lean ====
/-
  GENERAL lemma on typed buffer references (the references a module-local function's operations are stated over): contents
  stored through a typed reference and read back through the same reference are the contents. Storing transports the
  contents along the reference's type equation and reading transports them back.
-/
import Idealize.ShloMosaic.Lib.StableHlo

namespace Cert.LibTypedRefs

open Idealize.ShloMosaic Idealize.ShloMosaic.StableHlo

/-- Contents stored through a typed reference and read back through it are the contents. -/
theorem ofBuf_toBuf {sg : RefSig} {Val : EltTy → Type} {T : BufTy} (x : TRef sg T) (v : T.Contents Val) :
    x.ofBuf (x.toBuf v) = v := by
  obtain ⟨r, rfl, _, _⟩ := x
  rfl

end Cert.LibTypedRefs
-- ==== Proof.RefStages.lean ====
/-
  The reference's result as the network of its arguments.

  The reference computes, three times, the mean aggregation of the current features followed by
      aggregated · Wl + b + features · Wr,
  rectified after the first two and sent through log-softmax after the third. Its aggregation is the same composition of
  the same gather, scatter-adds and division as the kernel program's, with the same dimension records, so it is the named
  aggregation by unfolding. Each dense stage is the layer of Cert.Sage: the products are sums over the contracted axis,
  the bias broadcast twice is the bias at the column, and the three summands are added in another order than in the
  kernel, which on extended reals changes nothing. The reference's log-softmax takes the maximum of minus infinity and
  the row maximum folded from minus infinity, which is that row maximum, and starts its sum of exponentials from zero.
-/
import proofs.«127570_j29703993819225_1_alg».proof.Proof.RefReadP
import proofs.«127570_j29703993819225_1_alg».proof.Proof.SageNet
import proofs.«127570_j29703993819225_1_alg».proof.Proof.LibLayout
import Idealize.ShloMosaic.Lib.ValueIdx
import Idealize.ShloMosaic.PureOps.Ideal.Laws

set_option maxRecDepth 16384

noncomputable section

namespace Cert.ReferenceIdeal.Stages

open Cert.ReferenceIdeal Cert.ReferenceIdeal.Gen Cert.ReferenceIdeal.ReadP
open Idealize.ShloMosaic Idealize.ShloMosaic.ValueIdx
open Cert.KernelIdeal.Net (srcOf dstOf aggMean h1 h2 out)
open scoped BigOperators

/-! ## The aggregation stages are the named aggregation -/

theorem agg0 {F : FTy → Type} [FloatOps F] (x0 : (⟨S100000x128, .f32⟩ : BufTy).Contents (Elt F)) (x1 : (⟨S2x1600000, .i32⟩ : BufTy).Contents (Elt F)) :
    val_main_v22 (F := F) x0 x1 = aggMean (F := F) x0 (srcOf x1) (dstOf x1) := rfl

theorem agg1 {F : FTy → Type} [FloatOps F] (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) :
    val_main_v48 (F := F) x0 x1 x2 x3 x4 = aggMean (F := F) (val_main_v29 (F := F) x0 x1 x2 x3 x4) (srcOf x1) (dstOf x1) := rfl

theorem agg2 {F : FTy → Type} [FloatOps F] (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) :
    val_main_v74 (F := F) x0 x1 x2 x3 x4 x5 x6 x7 = aggMean (F := F) (val_main_v55 (F := F) x0 x1 x2 x3 x4 x5 x6 x7) (srcOf x1) (dstOf x1) := rfl

/-! ## The dense stages -/

/-- The first stage's pre-activations. -/
theorem pre0 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (p : Fin 100000) (q : Fin 128) :
    val_main_v28 (F := Ideal) x0 x1 x2 x3 x4 (ix2 p q)
      = Cert.Sage.preAt (val_main_v22 (F := Ideal) x0 x1) x0 x2 x3 x4 p q := by
  unfold val_main_v28 val_main_v26 val_main_v27 val_main_v25 val_main_v24 val_main_v23
  exact Cert.Sage.pre_of_dot (by decide) dot_S100000x128_S128x128_S100000x128_1_0_0_1_n_n rfl rfl lhs_main_v23_0 lhs_main_v23_1 rhs_main_v23_0 rhs_main_v23_1
    bcast_S128_S1x128_1 bcast_S1x128_S100000x128_0_1 (val_main_v22 (F := Ideal) x0 x1) x0 x2 x4 x3 p q

/-- The first rectified stage is the first layer. -/
theorem layer0 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) : val_main_v29 (F := Ideal) x0 x1 x2 x3 x4 = h1 x0 x1 x2 x3 x4 := by
  funext j
  obtain ⟨p, q, rfl⟩ : ∃ (p : Fin 100000) (q : Fin 128), j = ix2 p q := ⟨j 0, j 1, eq_ix2 j⟩
  have e : val_main_v29 (F := Ideal) x0 x1 x2 x3 x4 (ix2 p q)
      = max (val_main_v28 (F := Ideal) x0 x1 x2 x3 x4 (ix2 p q)) (Ideal.ofBits .f32 0x00000000#32) := by
    rw [val_main_v29_apply, val_main_call0_v0_apply, val_main_call0_cst_apply]; rfl
  rw [e, pre0]
  unfold h1
  rw [← agg0]
  rfl

/-- The second stage's pre-activations. -/
theorem pre1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (p : Fin 100000) (q : Fin 128) :
    val_main_v54 (F := Ideal) x0 x1 x2 x3 x4 x5 x6 x7 (ix2 p q)
      = Cert.Sage.preAt (val_main_v48 (F := Ideal) x0 x1 x2 x3 x4) (val_main_v29 (F := Ideal) x0 x1 x2 x3 x4) x5 x6 x7 p q := by
  unfold val_main_v54 val_main_v52 val_main_v53 val_main_v51 val_main_v50 val_main_v49
  exact Cert.Sage.pre_of_dot (by decide) dot_S100000x128_S128x128_S100000x128_1_0_0_1_n_n rfl rfl lhs_main_v23_0 lhs_main_v23_1 rhs_main_v23_0 rhs_main_v23_1
    bcast_S128_S1x128_1 bcast_S1x128_S100000x128_0_1 (val_main_v48 (F := Ideal) x0 x1 x2 x3 x4) (val_main_v29 (F := Ideal) x0 x1 x2 x3 x4) x5 x7 x6 p q

/-- The second rectified stage is the second layer. -/
theorem layer1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) : val_main_v55 (F := Ideal) x0 x1 x2 x3 x4 x5 x6 x7 = h2 x0 x1 x2 x3 x4 x5 x6 x7 := by
  funext j
  obtain ⟨p, q, rfl⟩ : ∃ (p : Fin 100000) (q : Fin 128), j = ix2 p q := ⟨j 0, j 1, eq_ix2 j⟩
  have e : val_main_v55 (F := Ideal) x0 x1 x2 x3 x4 x5 x6 x7 (ix2 p q)
      = max (val_main_v54 (F := Ideal) x0 x1 x2 x3 x4 x5 x6 x7 (ix2 p q)) (Ideal.ofBits .f32 0x00000000#32) := by
    rw [val_main_v55_apply, val_main_call1_v0_apply, val_main_call1_cst_apply]; rfl
  rw [e, pre1]
  unfold h2
  rw [← layer0, ← agg1]
  rfl

/-- The pre-activations of the third stage. -/
theorem pre2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x32, .f32⟩ : BufTy).Contents (Elt Ideal)) (x9 : (⟨S32, .f32⟩ : BufTy).Contents (Elt Ideal)) (x10 : (⟨S128x32, .f32⟩ : BufTy).Contents (Elt Ideal)) (p : Fin 100000) (q : Fin 32) :
    val_main_v80 (F := Ideal) x0 x1 x2 x3 x4 x5 x6 x7 x8 x9 x10 (ix2 p q)
      = Cert.Sage.preAt (val_main_v74 (F := Ideal) x0 x1 x2 x3 x4 x5 x6 x7) (val_main_v55 (F := Ideal) x0 x1 x2 x3 x4 x5 x6 x7) x8 x9 x10 p q := by
  unfold val_main_v80 val_main_v78 val_main_v79 val_main_v77 val_main_v76 val_main_v75
  exact Cert.Sage.pre_of_dot (by decide) dot_S100000x128_S128x32_S100000x32_1_0_0_1_n_n rfl rfl lhs_main_v75_0 lhs_main_v75_1 rhs_main_v75_0 rhs_main_v75_1
    bcast_S32_S1x32_1 bcast_S1x32_S100000x32_0_1 (val_main_v74 (F := Ideal) x0 x1 x2 x3 x4 x5 x6 x7) (val_main_v55 (F := Ideal) x0 x1 x2 x3 x4 x5 x6 x7) x8 x10 x9 p q

/-! ## The reference's log-softmax -/

/-- The host's maximum over the lanes, read at row p: the row maximum folded from minus infinity. -/
theorem rowmax_host (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x32, .f32⟩ : BufTy).Contents (Elt Ideal)) (x9 : (⟨S32, .f32⟩ : BufTy).Contents (Elt Ideal)) (x10 : (⟨S128x32, .f32⟩ : BufTy).Contents (Elt Ideal)) (p : Fin 100000) :
    val_main_call2_v0 (F := Ideal) x0 x1 x2 x3 x4 x5 x6 x7 x8 x9 x10 (ix1 p)
      = Cert.Sage.rowMax (fun q' : Fin 32 => val_main_v80 (F := Ideal) x0 x1 x2 x3 x4 x5 x6 x7 x8 x9 x10 (ix2 p q')) := by
  unfold val_main_call2_v0
  rw [Host.reduce_eq_fold_single FloatOps.maximumf _ _ reducesTo_S100000x32_S100000_d1 (by decide) h_S_]
  show (Finset.univ : Finset (Fin 32)).fold max (Ideal.ofBits .f32 0xFF800000#32)
      (fun k => val_main_v80 (F := Ideal) x0 x1 x2 x3 x4 x5 x6 x7 x8 x9 x10 ((by decide : Shape.Reduces S100000x32 [1] S100000).lift (ix1 p) k)) = _
  unfold Cert.Sage.rowMax
  refine congrArg (fun f : Fin 32 → EReal => (Finset.univ : Finset (Fin 32)).fold max (Ideal.ofBits .f32 0xFF800000#32) f) ?_
  funext k
  exact congrArg (val_main_v80 (F := Ideal) x0 x1 x2 x3 x4 x5 x6 x7 x8 x9 x10) (Cert.LibLayout.lift_row _ p k)

/-- The value the reference subtracts from every entry of row p: the row maximum. -/
theorem shift_host (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x32, .f32⟩ : BufTy).Contents (Elt Ideal)) (x9 : (⟨S32, .f32⟩ : BufTy).Contents (Elt Ideal)) (x10 : (⟨S128x32, .f32⟩ : BufTy).Contents (Elt Ideal)) (p : Fin 100000) (c : Fin 32) :
    val_main_call2_v4 (F := Ideal) x0 x1 x2 x3 x4 x5 x6 x7 x8 x9 x10 (ix2 p c)
      = Cert.Sage.rowMax (fun q' : Fin 32 => val_main_v80 (F := Ideal) x0 x1 x2 x3 x4 x5 x6 x7 x8 x9 x10 (ix2 p q')) := by
  rw [val_main_call2_v4_apply, val_main_call2_v3_apply, val_main_call2_v2_apply, val_main_call2_v1_apply, val_main_call2_cst_0_apply]
  have e : idx_main_call2_v3 (idx_main_call2_v4 (ix2 p c)) = ix1 p := funext fun a => Fin.ext (by match a with | ⟨0, _⟩ => rfl)
  rw [e, rowmax_host]
  exact Cert.Sage.max_start_rowMax _

/-- The reference's result is the network. -/
theorem result (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x32, .f32⟩ : BufTy).Contents (Elt Ideal)) (x9 : (⟨S32, .f32⟩ : BufTy).Contents (Elt Ideal)) (x10 : (⟨S128x32, .f32⟩ : BufTy).Contents (Elt Ideal)) : val_main_v81 (F := Ideal) x0 x1 x2 x3 x4 x5 x6 x7 x8 x9 x10 = out x0 x1 x2 x3 x4 x5 x6 x7 x8 x9 x10 := by
  funext j
  obtain ⟨p, q, rfl⟩ : ∃ (p : Fin 100000) (q : Fin 32), j = ix2 p q := ⟨j 0, j 1, eq_ix2 j⟩
  unfold out
  rw [← layer1, ← agg2]
  show _ = Cert.Sage.lsmAt (fun q' => Cert.Sage.preAt (val_main_v74 (F := Ideal) x0 x1 x2 x3 x4 x5 x6 x7) (val_main_v55 (F := Ideal) x0 x1 x2 x3 x4 x5 x6 x7) x8 x9 x10 p q') q
  rw [show (fun q' => Cert.Sage.preAt (val_main_v74 (F := Ideal) x0 x1 x2 x3 x4 x5 x6 x7) (val_main_v55 (F := Ideal) x0 x1 x2 x3 x4 x5 x6 x7) x8 x9 x10 p q')
      = fun q' : Fin 32 => val_main_v80 (F := Ideal) x0 x1 x2 x3 x4 x5 x6 x7 x8 x9 x10 (ix2 p q') from funext fun c => (pre2 x0 x1 x2 x3 x4 x5 x6 x7 x8 x9 x10 p c).symm]
  rw [val_main_v81_apply, val_main_call2_v5_apply, val_main_call2_v10_apply, val_main_call2_v9_apply, val_main_call2_v8_apply,
    val_main_call2_v7_apply, val_main_call2_cst_1_apply, shift_host]
  simp only [Ideal.subf_def, Ideal.hostUnary_log_def, Ideal.ofBits_def, Ideal.ofBits_zero_f32, zero_add]
  unfold Cert.Sage.lsmAt
  refine congrArg (fun s => (val_main_v80 (F := Ideal) x0 x1 x2 x3 x4 x5 x6 x7 x8 x9 x10 (ix2 p q)
    - Cert.Sage.rowMax fun q' : Fin 32 => val_main_v80 (F := Ideal) x0 x1 x2 x3 x4 x5 x6 x7 x8 x9 x10 (ix2 p q')) - Ideal.log s) ?_
  refine Finset.sum_congr rfl fun k _ => ?_
  have e : idx_main_call2_v7 (idx_main_call2_v8 (idx_main_call2_v10 (ix2 p q))) k = ix2 p k :=
    funext fun a => Fin.ext (by match a with | ⟨0, _⟩ => rfl | ⟨1, _⟩ => rfl)
  rw [e, val_main_call2_v6_apply, val_main_call2_v5_apply, shift_host]
  simp only [Ideal.hostUnary_exp_def, Ideal.subf_def]

end Cert.ReferenceIdeal.Stages

end
-- ==== Proof.lean ====
/-
  Three layers of a mean-aggregating graph network on 100000 nodes and 1600000 edges: a Pallas kernel program against its
  jnp reference, equal on extended reals.

  Both programs compute, three times, the MEAN AGGREGATION of the current node features over the edges (gather the source
  rows, add them into their destinations, divide by the in-degree or by one) followed by a dense stage
      aggregated · Wl + features · Wr + b,
  rectified after the first two stages, sent through log-softmax (subtract the row maximum, then the logarithm of the row's
  sum of exponentials) after the third.

  * The aggregation is spelt identically in the two programs (the same host operations with the same dimension records),
    so it is carried as one named function and never opened.
  * The kernel program runs each dense stage as a kernel over 50 blocks of 2000 rows. A row of a dense stage depends only
    on the same row of the aggregated and of the original features, so the 50 written blocks are the blocks of the stage
    applied to the whole arrays, and they tile the 100000 rows.
  * The kernel adds the two matrix products first and the bias last; the reference adds the bias between the two
    products. Addition of extended reals is commutative and associative, so the sums agree with no finiteness needed:
    the precondition is never opened. Rounding the matrix unit's operands to a narrower format is no change on extended
    reals.
  * The reference's log-softmax takes the larger of minus infinity and a row maximum folded from minus infinity, which
    is that maximum, and starts its sum from zero.

  The three frames: the two kernel programs' are generated; the reference's is its run with the result dropped. The ideal
  pass rewrote nothing, so the idealization claim is trivial.
-/
import proofs.«127570_j29703993819225_1_alg».proof.Defs
import proofs.«127570_j29703993819225_1_alg».proof.Proof.Gen.Kernel
import proofs.«127570_j29703993819225_1_alg».proof.Proof.Gen.Kernel.Skeleton
import proofs.«127570_j29703993819225_1_alg».proof.Proof.Gen.Kernel.Launch
import proofs.«127570_j29703993819225_1_alg».proof.Proof.Gen.Kernel.Points
import proofs.«127570_j29703993819225_1_alg».proof.Proof.Gen.Kernel.Frame
import proofs.«127570_j29703993819225_1_alg».proof.Proof.Gen.KernelIdeal
import proofs.«127570_j29703993819225_1_alg».proof.Proof.Gen.KernelIdeal.Skeleton
import proofs.«127570_j29703993819225_1_alg».proof.Proof.Gen.KernelIdeal.Launch
import proofs.«127570_j29703993819225_1_alg».proof.Proof.Gen.KernelIdeal.Points
import proofs.«127570_j29703993819225_1_alg».proof.Proof.Gen.KernelIdeal.Frame
import proofs.«127570_j29703993819225_1_alg».proof.Proof.Gen.ReferenceIdeal
import proofs.«127570_j29703993819225_1_alg».proof.Proof.Gen.Pre_finite_inputs
import proofs.«127570_j29703993819225_1_alg».proof.Proof.KernelRun
import proofs.«127570_j29703993819225_1_alg».proof.Proof.KernelChain
import proofs.«127570_j29703993819225_1_alg».proof.Proof.RefStages
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel :=
  fun m ρ _ => Cert.Kernel.Gen.frame m ρ

/-- The idealized kernel program runs and keeps its arguments. -/
theorem frame_kernelIdeal : Cert.frame_KernelIdeal :=
  fun m ρ _ => Cert.KernelIdeal.Gen.frame m ρ

/-- The idealized reference runs and keeps its arguments: its run with the result dropped. -/
theorem frame_referenceIdeal : Cert.frame_ReferenceIdeal :=
  fun m ρ _ => (θ_run Cert.ReferenceIdeal.defs _ _).mono (fun _ h c => (h c).2)
    (Cert.ReferenceIdeal.ValueP.run (F := Ideal) m ρ)

/-- From memories that agree on the arguments both idealized programs end with the network of the arguments in their
    result arrays. -/
theorem algebraic : Cert.algebraic_KernelIdeal_ReferenceIdeal := by
  intro m ρ m' ρ' _ hagree
  refine ⟨fun c => Cert.KernelIdeal.Net.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.result m ρ c), (h c).2⟩)
      (Cert.KernelIdeal.Named.run_result (F := Ideal) m ρ)
  · refine (θ_run Cert.ReferenceIdeal.defs _ _).mono (fun _ h c => ⟨?_, (h c).2⟩)
      (Cert.ReferenceIdeal.ValueP.run (F := Ideal) m' ρ')
    obtain ⟨e0, e1, e2, e3, e4, e5, e6, e7, e8, e9, e10⟩ := hagree c
    rw [(h c).1, Cert.ReferenceIdeal.ReadP.val_main_v81_eq, Cert.ReferenceIdeal.Stages.result,
      e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
